-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x64 : Shape := ⟨2, ![400000, 64]⟩
abbrev S50000x3 : Shape := ⟨2, ![50000, 3]⟩
abbrev S2x400000 : Shape := ⟨2, ![2, 400000]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_
  bcast_S_S50000x3 : S_.BroadcastsInDim S50000x3 (![] : Fin 0 → Fin S50000x3.rank)
  reducesTo_S50000x3_S_d0_1 : S50000x3.ReducesTo [0, 1] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S128x64 .f32) (main_arg13 : FVec F S64 .f32) (main_arg14 : FVec F S64x1 .f32) (main_arg15 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg14
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg15 main_v63 main_v67

def fn_part2 {F : FTy → Type} [FloatOps F] (main_arg8 : FVec F S256x128 .f32) (main_arg9 : FVec F S128 .f32) (main_arg10 : FVec F S128x128 .f32) (main_arg11 : FVec F S128 .f32) (main_arg12 : FVec F S128x64 .f32) (main_arg13 : FVec F S64 .f32) (main_arg14 : FVec F S64x1 .f32) (main_arg15 : FVec F S1 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x64 .f32) (main_arg13 : FVec F S64 .f32) (main_arg14 : FVec F S64x1 .f32) (main_arg15 : FVec F S1 .f32) (main_v13 : IVec S_ 1) (main_v16 : IVec S320x128 1) : IVec S_ 1 :=
  let main_c_5 : IVec S_ 1 := constantI S_ 1 1#1
  let main_v17 : IVec S_ 1 := (fun x v => Host.reduce IntOp.andi x v reducesTo_S320x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : FVec F S400000x64 .f32) (main_arg2 : FVec F S50000x3 .f32) (main_arg3 : IVec S2x400000 32) (main_arg4 : FVec F S320x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x64 .f32) (main_arg13 : FVec F S64 .f32) (main_arg14 : FVec F S64x1 .f32) (main_arg15 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x64 .f32 := Host.absf main_arg1
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  let main_v9 : FVec F S50000x3 .f32 := Host.absf main_arg2
  let main_cst_2 : FVec F S_ .f32 := constant S_ .f32 0x7F800000#32
  let main_v10 : FVec F S50000x3 .f32 := broadcastInDim S50000x3 ![] bcast_S_S50000x3 main_cst_2
  let main_v11 : IVec S50000x3 1 := cmpf .olt main_v9 main_v10
  let main_c_3 : IVec S_ 1 := constantI S_ 1 1#1
  let main_v12 : IVec S_ 1 := (fun x v => Host.reduce IntOp.andi x v reducesTo_S50000x3_S_d0_1 h_S_) main_v11 main_c_3
  let main_v13 : IVec S_ 1 := andi main_v8 main_v12
  let main_v14 : FVec F S320x128 .f32 := Host.absf main_arg4
  let main_cst_4 : FVec F S_ .f32 := constant S_ .f32 0x7F800000#32
  let main_v15 : FVec F S320x128 .f32 := broadcastInDim S320x128 ![] bcast_S_S320x128 main_cst_4
  let main_v16 : IVec S320x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S400000x64 : Shape := ⟨2, ![400000, 64]⟩
abbrev S50000x3 : Shape := ⟨2, ![50000, 3]⟩
abbrev S2x400000 : Shape := ⟨2, ![2, 400000]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S1x128 : Shape := ⟨2, ![1, 128]⟩
abbrev S1x64 : Shape := ⟨2, ![1, 64]⟩
abbrev S1x1 : Shape := ⟨2, ![1, 1]⟩
abbrev S4000x128 : Shape := ⟨2, ![4000, 128]⟩
abbrev S4000x64 : Shape := ⟨2, ![4000, 64]⟩
abbrev S4000x1 : Shape := ⟨2, ![4000, 1]⟩
abbrev S64x128 : Shape := ⟨2, ![64, 128]⟩
abbrev S5000x128 : Shape := ⟨2, ![5000, 128]⟩
abbrev S400000x3 : Shape := ⟨2, ![400000, 3]⟩

abbrev nBuf : Space → Nat
  | .hbm => 95
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S400000x64, .f32⟩
  | .hbm, ⟨2, _⟩ => ⟨S50000x3, .f32⟩
  | .hbm, ⟨3, _⟩ => ⟨S2x400000, .i32⟩
  | .hbm, ⟨4, _⟩ => ⟨S320x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S1x400000, .i32⟩
  | .hbm, ⟨17, _⟩ => ⟨S400000, .i32⟩
  | .hbm, ⟨18, _⟩ => ⟨S1x400000, .i32⟩
  | .hbm, ⟨19, _⟩ => ⟨S400000, .i32⟩
  | .hbm, ⟨20, _⟩ => ⟨S50000x128, .bf16⟩
  | .hbm, ⟨21, _⟩ => ⟨S_, .i32⟩
  | .hbm, ⟨22, _⟩ => ⟨S400000, .i32⟩
  | .hbm, ⟨23, _⟩ => ⟨S400000, .i1⟩
  | .hbm, ⟨24, _⟩ => ⟨S_, .i32⟩
  | .hbm, ⟨25, _⟩ => ⟨S400000, .i32⟩
  | .hbm, ⟨26, _⟩ => ⟨S400000, .i32⟩
  | .hbm, ⟨27, _⟩ => ⟨S400000, .i32⟩
  | .hbm, ⟨28, _⟩ => ⟨S400000x1, .i32⟩
  | .hbm, ⟨29, _⟩ => ⟨S400000x128, .bf16⟩
  | .hbm, ⟨30, _⟩ => ⟨S_, .i32⟩
  | .hbm, ⟨31, _⟩ => ⟨S400000, .i32⟩
  | .hbm, ⟨32, _⟩ => ⟨S400000, .i1⟩
  | .hbm, ⟨33, _⟩ => ⟨S_, .i32⟩
  | .hbm, ⟨34, _⟩ => ⟨S400000, .i32⟩
  | .hbm, ⟨35, _⟩ => ⟨S400000, .i32⟩
  | .hbm, ⟨36, _⟩ => ⟨S400000, .i32⟩
  | .hbm, ⟨37, _⟩ => ⟨S400000x1, .i32⟩
  | .hbm, ⟨38, _⟩ => ⟨S400000x128, .bf16⟩
  | .hbm, ⟨39, _⟩ => ⟨S400000x64, .bf16⟩
  | .hbm, ⟨40, _⟩ => ⟨S320x128, .bf16⟩
  | .hbm, ⟨41, _⟩ => ⟨S128x128, .bf16⟩
  | .hbm, ⟨42, _⟩ => ⟨S128x64, .bf16⟩
  | .hbm, ⟨43, _⟩ => ⟨S64x1, .bf16⟩
  | .hbm, ⟨44, _⟩ => ⟨S256x128, .bf16⟩
  | .hbm, ⟨45, _⟩ => ⟨S128x128, .bf16⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x64, .f32⟩
  | .hbm, ⟨51, _⟩ => ⟨S1x1, .f32⟩
  | .hbm, ⟨52, _⟩ => ⟨S400000x128, .f32⟩
  | .hbm, ⟨53, _⟩ => ⟨S400000x1, .f32⟩
  | .hbm, ⟨54, _⟩ => ⟨S_, .f32⟩
  | .hbm, ⟨55, _⟩ => ⟨S50000x128, .f32⟩
  | .hbm, ⟨56, _⟩ => ⟨S400000x1, .i32⟩
  | .hbm, ⟨57, _⟩ => ⟨S50000x128, .f32⟩
  | .hbm, ⟨58, _⟩ => ⟨S50000x128, .f32⟩
  | .hbm, ⟨59, _⟩ => ⟨S_, .i32⟩
  | .hbm, ⟨60, _⟩ => ⟨S400000, .i32⟩
  | .hbm, ⟨61, _⟩ => ⟨S400000, .i1⟩
  | .hbm, ⟨62, _⟩ => ⟨S_, .i32⟩
  | .hbm, ⟨63, _⟩ => ⟨S400000, .i32⟩
  | .hbm, ⟨64, _⟩ => ⟨S400000, .i32⟩
  | .hbm, ⟨65, _⟩ => ⟨S400000, .i32⟩
  | .hbm, ⟨66, _⟩ => ⟨S400000x1, .i32⟩
  | .hbm, ⟨67, _⟩ => ⟨S400000x3, .f32⟩
  | .hbm, ⟨68, _⟩ => ⟨S_, .i32⟩
  | .hbm, ⟨69, _⟩ => ⟨S400000, .i32⟩
  | .hbm, ⟨70, _⟩ => ⟨S400000, .i1⟩
  | .hbm, ⟨71, _⟩ => ⟨S_, .i32⟩
  | .hbm, ⟨72, _⟩ => ⟨S400000, .i32⟩
  | .hbm, ⟨73, _⟩ => ⟨S400000, .i32⟩
  | .hbm, ⟨74, _⟩ => ⟨S400000, .i32⟩
  | .hbm, ⟨75, _⟩ => ⟨S400000x1, .i32⟩
  | .hbm, ⟨76, _⟩ => ⟨S400000x3, .f32⟩
  | .hbm, ⟨77, _⟩ => ⟨S400000x3, .f32⟩
  | .hbm, ⟨78, _⟩ => ⟨S400000x3, .f32⟩
  | .hbm, ⟨79, _⟩ => ⟨S_, .f32⟩
  | .hbm, ⟨80, _⟩ => ⟨S400000, .f32⟩
  | .hbm, ⟨81, _⟩ => ⟨S400000x1, .f32⟩
  | .hbm, ⟨82, _⟩ => ⟨S400000x1, .f32⟩
  | .hbm, ⟨83, _⟩ => ⟨S_, .f32⟩
  | .hbm, ⟨84, _⟩ => ⟨S400000x1, .f32⟩
  | .hbm, ⟨85, _⟩ => ⟨S400000x1, .f32⟩
  | .hbm, ⟨86, _⟩ => ⟨S400000x3, .f32⟩
  | .hbm, ⟨87, _⟩ => ⟨S400000x3, .f32⟩
  | .hbm, ⟨88, _⟩ => ⟨S400000x3, .f32⟩
  | .hbm, ⟨89, _⟩ => ⟨S400000x3, .f32⟩
  | .hbm, ⟨90, _⟩ => ⟨S_, .f32⟩
  | .hbm, ⟨91, _⟩ => ⟨S50000x3, .f32⟩
  | .hbm, ⟨92, _⟩ => ⟨S400000x1, .i32⟩
  | .hbm, ⟨93, _⟩ => ⟨S50000x3, .f32⟩
  | .hbm, ⟨94, _⟩ => ⟨S50000x3, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x64, .bf16⟩
  | .local _ .vmem, ⟨5, _⟩ => ⟨S4000x64, .bf16⟩
  | .local _ .vmem, ⟨6, _⟩ => ⟨S320x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S128x64, .bf16⟩
  | .local _ .vmem, ⟨11, _⟩ => ⟨S1x64, .f32⟩
  | .local _ .vmem, ⟨12, _⟩ => ⟨S64x1, .bf16⟩
  | .local _ .vmem, ⟨13, _⟩ => ⟨S1x1, .f32⟩
  | .local _ .vmem, ⟨14, _⟩ => ⟨S4000x128, .f32⟩
  | .local _ .vmem, ⟨15, _⟩ => ⟨S4000x128, .f32⟩
  | .local _ .vmem, ⟨16, _⟩ => ⟨S4000x1, .f32⟩
  | .local _ .vmem, ⟨17, _⟩ => ⟨S4000x1, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S256x128, .bf16⟩
  | .local _ .vmem, ⟨23, _⟩ => ⟨S1x128, .f32⟩
  | .local _ .vmem, ⟨24, _⟩ => ⟨S128x128, .bf16⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32_0 : Ref sig .tc := ⟨.hbm, 52, rfl⟩
abbrev main_v32_1 : Ref sig .tc := ⟨.hbm, 53, rfl⟩
abbrev main_cst : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_3 : Ref sig .tc := ⟨.hbm, 59, rfl⟩
abbrev main_v37 : Ref sig .tc := ⟨.hbm, 60, rfl⟩
abbrev main_v38 : Ref sig .tc := ⟨.hbm, 61, rfl⟩
abbrev main_c_4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_5 : Ref sig .tc := ⟨.hbm, 68, rfl⟩
abbrev main_v44 : Ref sig .tc := ⟨.hbm, 69, rfl⟩
abbrev main_v45 : Ref sig .tc := ⟨.hbm, 70, rfl⟩
abbrev main_c_6 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call0_v0 : Ref sig .tc := ⟨.hbm, 78, rfl⟩
abbrev main_call0_cst : Ref sig .tc := ⟨.hbm, 79, rfl⟩
abbrev main_call0_v1 : Ref sig .tc := ⟨.hbm, 80, rfl⟩
abbrev main_call0_v2 : Ref sig .tc := ⟨.hbm, 81, rfl⟩
abbrev main_v52 : Ref sig .tc := ⟨.hbm, 82, rfl⟩
abbrev main_cst_7 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_8 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S320x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4000x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bitsLt_bf16_f32 : FTy.bits .bf16 < FTy.bits .f32
  bcast_S_S400000 : S_.BroadcastsInDim S400000 (![] : Fin 0 → Fin S400000.rank)
  bcast_S400000_S400000x1_0 : S400000.BroadcastsInDim S400000x1 (![0] : Fin 1 → Fin S400000x1.rank)
  shapeCasts_S128_S1x128 : S128.ShapeCasts S1x128
  shapeCasts_S64_S1x64 : S64.ShapeCasts S1x64
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S320x128_S128x128_0_0 : ∀ a, (![0, 0] : Fin 2 → Nat) a + S128x128.size a ≤ S320x128.size a
  h_S128x128 : 0 < S128x128.numel
  shapeCasts_S128x128_S128x128 : S128x128.ShapeCasts S128x128
  inb_S320x128_S128x128_128_0 : ∀ a, (![128, 0] : Fin 2 → Nat) a + S128x128.size a ≤ S320x128.size a
  inb_S320x128_S64x128_256_0 : ∀ a, (![256, 0] : Fin 2 → Nat) a + S64x128.size a ≤ S320x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S256x128_S128x128_0_0 : ∀ a, (![0, 0] : Fin 2 → Nat) a + S128x128.size a ≤ S256x128.size a
  inb_S256x128_S128x128_128_0 : ∀ a, (![128, 0] : Fin 2 → Nat) a + S128x128.size a ≤ S256x128.size a
  broadcasts_S1x128_S5000x128 : S1x128.Broadcasts S5000x128
  reducesTo_S400000x3_S400000_d1 : S400000x3.ReducesTo [1] S400000
  h_S_ : 0 < S_.numel
  bcast_S_S400000x1 : S_.BroadcastsInDim S400000x1 (![] : Fin 0 → Fin S400000x1.rank)
  bcast_S400000x1_S400000x3_0_1 : S400000x1.BroadcastsInDim S400000x3 (![0, 1] : Fin 2 → Fin S400000x3.rank)
  bcast_S_S50000x3 : S_.BroadcastsInDim S50000x3 (![] : Fin 0 → Fin S50000x3.rank)
  gather_S50000x128_S400000x1_S400000x128_1_0_n_n_0_1_1128_wf : GatherDims.WF S50000x128 S400000x1 S400000x128 [1] [0] [] [0] [] 1 ![1, 128]
  dot_S4000x128_S128x128_S4000x128_1_0_0_1_n_n_wf : DotDims.WF S4000x128 S128x128 S4000x128 [1] [0] [0] [1] [] []
  dot_S4000x64_S64x128_S4000x128_1_0_0_1_n_n_wf : DotDims.WF S4000x64 S64x128 S4000x128 [1] [0] [0] [1] [] []
  dot_S4000x128_S128x64_S4000x64_1_0_0_1_n_n_wf : DotDims.WF S4000x128 S128x64 S4000x64 [1] [0] [0] [1] [] []
  dot_S4000x64_S64x1_S4000x1_1_0_0_1_n_n_wf : DotDims.WF S4000x64 S64x1 S4000x1 [1] [0] [0] [1] [] []
  scatter_S50000x128_S400000x1_S400000x128_1_0_0_1_wf : ScatterDims.WF S50000x128 S400000x1 S400000x128 [1] [0] [0] 1
  dot_S5000x128_S128x128_S5000x128_1_0_0_1_n_n_wf : DotDims.WF S5000x128 S128x128 S5000x128 [1] [0] [0] [1] [] []
  gather_S50000x3_S400000x1_S400000x3_1_0_n_n_0_1_13_wf : GatherDims.WF S50000x3 S400000x1 S400000x3 [1] [0] [] [0] [] 1 ![1, 3]
  scatter_S50000x3_S400000x1_S400000x3_1_0_0_1_wf : ScatterDims.WF S50000x3 S400000x1 S400000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S400000x128.size a
  hwx0_0 : ∀ i : grid0.Coords, EltTy.bits .bf16 = 32 ∨ (Rect.block (s := S400000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S400000x128.size a
  hwx0_1 : ∀ i : grid0.Coords, EltTy.bits .bf16 = 32 ∨ (Rect.block (s := S400000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S400000x64.size a
  hwx0_2 : ∀ i : grid0.Coords, EltTy.bits .bf16 = 32 ∨ (Rect.block (s := S400000x64) S4000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x128.size a ≤ S320x128.size a
  hwx0_3 : ∀ i : grid0.Coords, EltTy.bits .bf16 = 32 ∨ (Rect.block (s := S320x128) S320x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .bf16 = 32 ∨ (Rect.block (s := S128x64) S128x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S64x1.size a
  hwx0_9 : ∀ i : grid0.Coords, EltTy.bits .bf16 = 32 ∨ (Rect.block (s := S64x1) S64x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S400000x128.size a
  hwx0_11 : ∀ i : grid0.Coords, EltTy.bits .f32 = 32 ∨ (Rect.block (s := S400000x128) S4000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x1.size a ≤ S400000x1.size a
  hwx0_12 : ∀ i : grid0.Coords, EltTy.bits .f32 = 32 ∨ (Rect.block (s := S400000x1) S4000x1.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x3_S400000x1_S400000x3_1_0_n_n_0_1_13 : GatherDims S50000x3 S400000x1 S400000x3 where
  offsetDims := [1]
  collapsedSliceDims := [0]
  operandBatchingDims := []
  startIndicesBatchingDims := []
  startIndexMap := [0]
  indexVectorDim := 1
  sliceSizes := ![1, 3]
  wf := gather_S50000x3_S400000x1_S400000x3_1_0_n_n_0_1_13_wf
def scatter_S50000x3_S400000x1_S400000x3_1_0_0_1 : ScatterDims S50000x3 S400000x1 S400000x3 where
  updateWindowDims := [1]
  insertedWindowDims := [0]
  scatterDimsToOperandDims := [0]
  indexVectorDim := 1
  wf := scatter_S50000x3_S400000x1_S400000x3_1_0_0_1_wf

abbrev win0_0 : Pipeline.Window sig grid0 :=
  Pipeline.Window.ofSpec (Memref.whole main_v11) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S320x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S64x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v31) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v32_0) S4000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v32_1) S4000x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S400000x64 : Shape := ⟨2, ![400000, 64]⟩
abbrev S50000x3 : Shape := ⟨2, ![50000, 3]⟩
abbrev S2x400000 : Shape := ⟨2, ![2, 400000]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S400000x320 : Shape := ⟨2, ![400000, 320]⟩
abbrev S1x128 : Shape := ⟨2, ![1, 128]⟩
abbrev S50000x256 : Shape := ⟨2, ![50000, 256]⟩
abbrev S1x64 : Shape := ⟨2, ![1, 64]⟩
abbrev S1x1 : Shape := ⟨2, ![1, 1]⟩
abbrev S400000x3 : Shape := ⟨2, ![400000, 3]⟩

abbrev nBuf : Space → Nat
  | .hbm => 141
  | .vmem => 0
  | .smem => 0
  | _ => 0

abbrev hbmTy0_0 (i : Nat) : BufTy := match i % 128 with
  | 0 => ⟨S50000x128, .f32⟩
  | 1 => ⟨S400000x64, .f32⟩
  | 2 => ⟨S50000x3, .f32⟩
  | 3 => ⟨S2x400000, .i32⟩
  | 4 => ⟨S320x128, .f32⟩
  | 5 => ⟨S128, .f32⟩
  | 6 => ⟨S128x128, .f32⟩
  | 7 => ⟨S128, .f32⟩
  | 8 => ⟨S256x128, .f32⟩
  | 9 => ⟨S128, .f32⟩
  | 10 => ⟨S128x128, .f32⟩
  | 11 => ⟨S128, .f32⟩
  | 12 => ⟨S128x64, .f32⟩
  | 13 => ⟨S64, .f32⟩
  | 14 => ⟨S64x1, .f32⟩
  | 15 => ⟨S1, .f32⟩
  | 16 => ⟨S1x400000, .i32⟩
  | 17 => ⟨S400000, .i32⟩
  | 18 => ⟨S1x400000, .i32⟩
  | 19 => ⟨S400000, .i32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S400000x128, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x128, .f32⟩
  | 38 => ⟨S400000x320, .f32⟩
  | 39 => ⟨S400000x128, .f32⟩
  | 40 => ⟨S1x128, .f32⟩
  | 41 => ⟨S400000x128, .f32⟩
  | 42 => ⟨S400000x128, .f32⟩
  | 43 => ⟨S400000x128, .f32⟩
  | 44 => ⟨S400000x128, .f32⟩
  | 45 => ⟨S_, .f32⟩
  | 46 => ⟨S400000x128, .f32⟩
  | 47 => ⟨S400000x128, .f32⟩
  | 48 => ⟨S_, .f32⟩
  | 49 => ⟨S400000x128, .f32⟩
  | 50 => ⟨S400000x128, .f32⟩
  | 51 => ⟨S400000x128, .f32⟩
  | 52 => ⟨S400000x128, .f32⟩
  | 53 => ⟨S1x128, .f32⟩
  | 54 => ⟨S400000x128, .f32⟩
  | 55 => ⟨S400000x128, .f32⟩
  | 56 => ⟨S400000x128, .f32⟩
  | 57 => ⟨S400000x128, .f32⟩
  | 58 => ⟨S_, .f32⟩
  | 59 => ⟨S400000x128, .f32⟩
  | 60 => ⟨S400000x128, .f32⟩
  | 61 => ⟨S_, .f32⟩
  | 62 => ⟨S400000x128, .f32⟩
  | 63 => ⟨S400000x128, .f32⟩
  | 64 => ⟨S400000x128, .f32⟩
  | 65 => ⟨S_, .f32⟩
  | 66 => ⟨S50000x128, .f32⟩
  | 67 => ⟨S400000x1, .i32⟩
  | 68 => ⟨S50000x128, .f32⟩
  | 69 => ⟨S50000x256, .f32⟩
  | 70 => ⟨S50000x128, .f32⟩
  | 71 => ⟨S1x128, .f32⟩
  | 72 => ⟨S50000x128, .f32⟩
  | 73 => ⟨S50000x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S50000x128, .f32⟩
  | 88 => ⟨S400000x64, .f32⟩
  | 89 => ⟨S1x64, .f32⟩
  | 90 => ⟨S400000x64, .f32⟩
  | 91 => ⟨S400000x64, .f32⟩
  | 92 => ⟨S400000x64, .f32⟩
  | 93 => ⟨S400000x64, .f32⟩
  | 94 => ⟨S_, .f32⟩
  | 95 => ⟨S400000x64, .f32⟩
  | 96 => ⟨S400000x64, .f32⟩
  | 97 => ⟨S_, .f32⟩
  | 98 => ⟨S400000x64, .f32⟩
  | 99 => ⟨S400000x64, .f32⟩
  | 100 => ⟨S400000x64, .f32⟩
  | 101 => ⟨S400000x1, .f32⟩
  | 102 => ⟨S1x1, .f32⟩
  | 103 => ⟨S400000x1, .f32⟩
  | 104 => ⟨S400000x1, .f32⟩
  | 105 => ⟨S_, .i32⟩
  | 106 => ⟨S400000, .i32⟩
  | 107 => ⟨S400000, .i1⟩
  | 108 => ⟨S_, .i32⟩
  | 109 => ⟨S400000, .i32⟩
  | 110 => ⟨S400000, .i32⟩
  | 111 => ⟨S400000, .i32⟩
  | 112 => ⟨S400000x1, .i32⟩
  | 113 => ⟨S400000x3, .f32⟩
  | 114 => ⟨S_, .i32⟩
  | 115 => ⟨S400000, .i32⟩
  | 116 => ⟨S400000, .i1⟩
  | 117 => ⟨S_, .i32⟩
  | 118 => ⟨S400000, .i32⟩
  | 119 => ⟨S400000, .i32⟩
  | 120 => ⟨S400000, .i32⟩
  | 121 => ⟨S400000x1, .i32⟩
  | 122 => ⟨S400000x3, .f32⟩
  | 123 => ⟨S400000x3, .f32⟩
  | 124 => ⟨S400000x3, .f32⟩
  | 125 => ⟨S_, .f32⟩
  | 126 => ⟨S400000, .f32⟩
  | 127 => ⟨S400000x1, .f32⟩
  | _ => ⟨S50000x128, .f32⟩

abbrev hbmTy0_1 (i : Nat) : BufTy := match i % 128 with
  | 0 => ⟨S400000x1, .f32⟩
  | 1 => ⟨S_, .f32⟩
  | 2 => ⟨S400000x1, .f32⟩
  | 3 => ⟨S400000x1, .f32⟩
  | 4 => ⟨S400000x3, .f32⟩
  | 5 => ⟨S400000x3, .f32⟩
  | 6 => ⟨S400000x3, .f32⟩
  | 7 => ⟨S400000x3, .f32⟩
  | 8 => ⟨S_, .f32⟩
  | 9 => ⟨S50000x3, .f32⟩
  | 10 => ⟨S400000x1, .i32⟩
  | 11 => ⟨S50000x3, .f32⟩
  | 12 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v28 : Ref sig .tc := ⟨.hbm, 64, rfl⟩
abbrev main_cst : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_call3_v0 : Ref sig .tc := ⟨.hbm, 92, rfl⟩
abbrev main_call3_v1 : Ref sig .tc := ⟨.hbm, 93, rfl⟩
abbrev main_call3_cst : Ref sig .tc := ⟨.hbm, 94, rfl⟩
abbrev main_call3_v2 : Ref sig .tc := ⟨.hbm, 95, rfl⟩
abbrev main_call3_v3 : Ref sig .tc := ⟨.hbm, 96, rfl⟩
abbrev main_call3_cst_0 : Ref sig .tc := ⟨.hbm, 97, rfl⟩
abbrev main_call3_v4 : Ref sig .tc := ⟨.hbm, 98, rfl⟩
abbrev main_call3_v5 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_c_3 : Ref sig .tc := ⟨.hbm, 105, rfl⟩
abbrev main_v52 : Ref sig .tc := ⟨.hbm, 106, rfl⟩
abbrev main_v53 : Ref sig .tc := ⟨.hbm, 107, rfl⟩
abbrev main_c_4 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_c_5 : Ref sig .tc := ⟨.hbm, 114, rfl⟩
abbrev main_v59 : Ref sig .tc := ⟨.hbm, 115, rfl⟩
abbrev main_v60 : Ref sig .tc := ⟨.hbm, 116, rfl⟩
abbrev main_c_6 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_call4_v0 : Ref sig .tc := ⟨.hbm, 124, rfl⟩
abbrev main_call4_cst : Ref sig .tc := ⟨.hbm, 125, rfl⟩
abbrev main_call4_v1 : Ref sig .tc := ⟨.hbm, 126, rfl⟩
abbrev main_call4_v2 : Ref sig .tc := ⟨.hbm, 127, rfl⟩
abbrev main_v67 : Ref sig .tc := ⟨.hbm, 128, rfl⟩
abbrev main_cst_7 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_cst_8 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x64_S400000x320_d1 : Shape.Concatenates [S400000x128, S400000x128, S400000x64] S400000x320 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S400000x64_0_1 : S1x64.BroadcastsInDim S400000x64 (![0, 1] : Fin 2 → Fin S400000x64.rank)
  bcast_S_S400000x64 : S_.BroadcastsInDim S400000x64 (![] : Fin 0 → Fin S400000x64.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x3_S400000_d1 : S400000x3.ReducesTo [1] S400000
  h_S_ : 0 < S_.numel
  bcast_S_S400000x1 : S_.BroadcastsInDim S400000x1 (![] : Fin 0 → Fin S400000x1.rank)
  bcast_S400000x1_S400000x3_0_1 : S400000x1.BroadcastsInDim S400000x3 (![0, 1] : Fin 2 → Fin S400000x3.rank)
  bcast_S_S50000x3 : S_.BroadcastsInDim S50000x3 (![] : Fin 0 → Fin S50000x3.rank)
  gather_S50000x128_S400000x1_S400000x128_1_0_n_n_0_1_1128_wf : GatherDims.WF S50000x128 S400000x1 S400000x128 [1] [0] [] [0] [] 1 ![1, 128]
  dot_S400000x320_S320x128_S400000x128_1_0_0_1_n_n_wf : DotDims.WF S400000x320 S320x128 S400000x128 [1] [0] [0] [1] [] []
  dot_S400000x128_S128x128_S400000x128_1_0_0_1_n_n_wf : DotDims.WF S400000x128 S128x128 S400000x128 [1] [0] [0] [1] [] []
  scatter_S50000x128_S400000x1_S400000x128_1_0_0_1_wf : ScatterDims.WF S50000x128 S400000x1 S400000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S400000x128_S128x64_S400000x64_1_0_0_1_n_n_wf : DotDims.WF S400000x128 S128x64 S400000x64 [1] [0] [0] [1] [] []
  dot_S400000x64_S64x1_S400000x1_1_0_0_1_n_n_wf : DotDims.WF S400000x64 S64x1 S400000x1 [1] [0] [0] [1] [] []
  gather_S50000x3_S400000x1_S400000x3_1_0_n_n_0_1_13_wf : GatherDims.WF S50000x3 S400000x1 S400000x3 [1] [0] [] [0] [] 1 ![1, 3]
  scatter_S50000x3_S400000x1_S400000x3_1_0_0_1_wf : ScatterDims.WF S50000x3 S400000x1 S400000x3 [1] [0] [0] 1

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x320_S320x128_S400000x128_1_0_0_1_n_n : DotDims S400000x320 S320x128 S400000x128 where
  lhsContracting := [1]
  rhsContracting := [0]
  lhsNonContracting := [0]
  rhsNonContracting := [1]
  lhsBatch := []
  rhsBatch := []
  wf := dot_S400000x320_S320x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S400000x128_S128x64_S400000x64_1_0_0_1_n_n : DotDims S400000x128 S128x64 S400000x64 where
  lhsContracting := [1]
  rhsContracting := [0]
  lhsNonContracting := [0]
  rhsNonContracting := [1]
  lhsBatch := []
  rhsBatch := []
  wf := dot_S400000x128_S128x64_S400000x64_1_0_0_1_n_n_wf
def dot_S400000x64_S64x1_S400000x1_1_0_0_1_n_n : DotDims S400000x64 S64x1 S400000x1 where
  lhsContracting := [1]
  rhsContracting := [0]
  lhsNonContracting := [0]
  rhsNonContracting := [1]
  lhsBatch := []
  rhsBatch := []
  wf := dot_S400000x64_S64x1_S400000x1_1_0_0_1_n_n_wf
def gather_S50000x3_S400000x1_S400000x3_1_0_n_n_0_1_13 : GatherDims S50000x3 S400000x1 S400000x3 where
  offsetDims := [1]
  collapsedSliceDims := [0]
  operandBatchingDims := []
  startIndicesBatchingDims := []
  startIndexMap := [0]
  indexVectorDim := 1
  sliceSizes := ![1, 3]
  wf := gather_S50000x3_S400000x1_S400000x3_1_0_n_n_0_1_13_wf
def scatter_S50000x3_S400000x1_S400000x3_1_0_0_1 : ScatterDims S50000x3 S400000x1 S400000x3 where
  updateWindowDims := [1]
  insertedWindowDims := [0]
  scatterDimsToOperandDims := [0]
  indexVectorDim := 1
  wf := scatter_S50000x3_S400000x1_S400000x3_1_0_0_1_wf

class Facts : Prop extends Facts₀ where

variable [Facts]
-- ==== Proof.RunResults.lean ====
/-
  The idealized kernel program's run with its two results named.

  @main is seven segments: host operations, the edge kernel's grid, host operations (the first scatter-add), the node
  kernel's grid, and three stretches of host operations (the coordinate update). The contents of every buffer at each
  segment boundary are a fold from the launch memory (`Gen.W0` … `Gen.W7`). Every weakly fair execution terminates
  without a fault, and in its final state every unscoped buffer holds the last boundary's contents `Gen.W7`; so the
  two result buffers hold `W7` at their references, and each argument buffer holds what it was launched with.
-/
import proofs.«168592_j7275674599805_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the two results end at the last segment
    boundary's contents and the sixteen arguments as launched. -/
theorem run_results : θ_run defs (onTc (τ := τ) (main (F := F))) ⟨m, fun _ => 0, ρ⟩ (fun r => ∀ c : Dev nD,
      r.2.mem ((c.tc : Thread nD τ).loc main_v36) = W7 m ρ c (Proc.devRef .tc main_v36)
      ∧ r.2.mem ((c.tc : Thread nD τ).loc main_v62) = W7 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v36 (by decide)),
       h c _ (mem_uc main_v62 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c)⟩)

end Cert.KernelIdeal.Whole

end
-- ==== Proof.RowSpec.lean ====
/-
  One message-passing layer of a graph network over the extended reals, written row by row.

  Every quantity below is a function of ONE row of its inputs and of the (whole) weight matrices, which is what makes a
  blocked evaluation and a whole-array evaluation agree: an output row never looks at another row.

  * `silu x = x · logistic x`, with `logistic x = 1 / (1 + e^(-x))`.
  * an edge's hidden row: the source node's features, the destination node's features and the edge's own attributes
    are laid end to end (128 + 128 + 64 = 320 entries) and multiplied by a [320, 128] matrix; written here already split
    into the three partial products over the three row bands 0–127, 128–255, 256–319 of that matrix, plus the bias.
    The bands are passed as three coordinate functions, so that an evaluation that holds them as three separate
    blocks and one that holds the whole matrix both instantiate the same definition.
  * an edge's message: `silu` of the hidden row, a [128, 128] linear map and bias, `silu` again.
  * an edge's coordinate weight: the message through a [128, 64] linear map and bias, `silu`, then a [64, 1] map and bias.
  * a node's update: the node's features and its aggregated messages laid end to end (256 entries) through a [256, 128]
    map (again split in two bands), `silu`, a [128, 128] map and bias, added to the node's own features.

  `sum_split3` / `sum_split2` are the only algebra the comparison of the two evaluations needs: a sum over 320 (256)
  positions is the sum of its three (two) consecutive bands. Addition of extended reals is associative and commutative
  without any finiteness assumption, so nothing here asks the entries to be finite.
-/
import Idealize.ShloMosaic.Lib.ValueIdx
import Idealize.ShloMosaic.PureOps.Ideal.Laws

noncomputable section

namespace Cert.RowSpec

open Idealize.ShloMosaic Idealize.ShloMosaic.ValueIdx

/-- `x · 1 / (1 + e^(-x))`. -/
def silu (x : EReal) : EReal := x * Ideal.logistic x

/-- The hidden row of an edge, entry `c`: the partial products of the source node's features `fs`, the destination
    node's features `fd` and the edge's attributes `ea` with their bands `Wa`, `Wb`, `Wc` of the first matrix, and the
    bias. -/
def hidden3 (fs fd : Fin 128 → EReal) (ea : Fin 64 → EReal) (Wa Wb : Fin 128 → Fin 128 → EReal)
    (Wc : Fin 64 → Fin 128 → EReal) (b1 : Fin 128 → EReal) (c : Fin 128) : EReal :=
  (∑ k : Fin 128, fs k * Wa k c) + (∑ k : Fin 128, fd k * Wb k c) + (∑ k : Fin 64, ea k * Wc k c) + b1 c

/-- The message of an edge, entry `c`, from its hidden row `h`: `silu`, a linear map and bias, `silu`. -/
def msg (h : Fin 128 → EReal) (W2 : Fin 128 → Fin 128 → EReal) (b2 : Fin 128 → EReal) (c : Fin 128) : EReal :=
  silu ((∑ k : Fin 128, silu (h k) * W2 k c) + b2 c)

/-- The coordinate weight of an edge, from its message row `g`. -/
def coordW (g : Fin 128 → EReal) (Wc1 : Fin 128 → Fin 64 → EReal) (bc1 : Fin 64 → EReal)
    (Wc2 : Fin 64 → EReal) (bc2 : EReal) : EReal :=
  (∑ k : Fin 64, silu ((∑ j : Fin 128, g j * Wc1 j k) + bc1 k) * Wc2 k) + bc2

/-- The updated features of a node, entry `c`, from the node's features `nf` and its aggregated messages `ag`. -/
def nodeOut (nf ag : Fin 128 → EReal) (Wa Wb : Fin 128 → Fin 128 → EReal) (bn1 : Fin 128 → EReal)
    (Wn2 : Fin 128 → Fin 128 → EReal) (bn2 : Fin 128 → EReal) (c : Fin 128) : EReal :=
  nf c + ((∑ k : Fin 128, silu ((∑ j : Fin 128, nf j * Wa j k) + (∑ j : Fin 128, ag j * Wb j k) + bn1 k) * Wn2 k c)
    + bn2 c)

/-- A sum over 320 positions is the sum of its bands 0–127, 128–255 and 256–319. -/
theorem sum_split3 (f : Fin 320 → EReal) :
    ∑ k : Fin 320, f k = (∑ k : Fin 128, f ⟨k.val, by omega⟩) + (∑ k : Fin 128, f ⟨128 + k.val, by omega⟩)
      + (∑ k : Fin 64, f ⟨256 + k.val, by omega⟩) := by
  have h1 : ∑ k : Fin 320, f k = ∑ k : Fin (256 + 64), f k := rfl
  rw [h1, Fin.sum_univ_add]
  have h2 : ∑ i : Fin 256, f (Fin.castAdd 64 i) = ∑ i : Fin (128 + 128), f (Fin.castAdd 64 i) := rfl
  rw [h2, Fin.sum_univ_add]
  rfl

/-- A sum over 256 positions is the sum of its bands 0–127 and 128–255. -/
theorem sum_split2 (f : Fin 256 → EReal) :
    ∑ k : Fin 256, f k = (∑ k : Fin 128, f ⟨k.val, by omega⟩) + (∑ k : Fin 128, f ⟨128 + k.val, by omega⟩) := by
  have h1 : ∑ k : Fin 256, f k = ∑ k : Fin (128 + 128), f k := rfl
  rw [h1, Fin.sum_univ_add]
  rfl

/-- The 32-bit pattern `0x3F800000` is the number one. -/
theorem ofBits_one_f32 : Ideal.ofBits .f32 0x3F800000#32 = 1 := by
  simp [Ideal.ofBits, Ideal.ieee]
  rw [← EReal.coe_mul]
  norm_num

/-- The expression `x · (1 / (1 + e^(-x)))` with the host's division, exponential and negation is `silu x`. -/
theorem silu_host (x : EReal) :
    x * Ideal.div (Ideal.ofBits .f32 0x3F800000#32) (Ideal.ofBits .f32 0x3F800000#32 + Ideal.exp (-x)) = silu x := by
  rw [ofBits_one_f32]; rfl

end Cert.RowSpec

end
-- ==== Proof.RefRows.lean ====
/-
  The reference evaluation of one message-passing layer of a graph network, read entry by entry.

  The reference works on whole arrays. For every edge it gathers the feature rows of the edge's two endpoints, lays them
  end to end with the edge's own attributes, and applies a linear map, `silu`, a second linear map and `silu` again: the
  edge's message. The messages are scatter-added to the destination nodes; every node's features are laid end to end
  with its aggregated messages and go through the node's two linear maps, with a residual connection. A third pair of
  linear maps turns each message into one weight per edge, which scales the normalised difference of the endpoints'
  coordinates before it is scatter-added to the coordinates.

  This module shows that an entry of each of these arrays is the row-wise expression of `Cert.RowSpec` evaluated on the
  matching row of its inputs:

  * `ref_msg`  — the message array, entry `(e, c)`, is `RowSpec.msg` of `RowSpec.hidden3` of edge `e`'s three source rows;
  * `ref_cw`   — the coordinate weight of edge `e` is `RowSpec.coordW` of its message row;
  * `ref_node` — the updated features, entry `(n, c)`, are `RowSpec.nodeOut` of node `n`'s feature row and aggregated row;
  * `ref_tail` — the updated coordinates are one fixed function `coordTail` of the coordinates, the edge list and the
    array of coordinate weights.

  Two facts carry the first three. A product with a matrix, read at one entry, is a finite sum over the contracted axis;
  and a sum over an axis that was obtained by laying arrays end to end is the sum over the pieces
  (`RowSpec.sum_split3`, `RowSpec.sum_split2`), each band of the joined row being a row of one of the arrays that were
  joined. The activation the host writes, `x · (1 / (1 + e^(-x)))`, is `silu x` (`RowSpec.silu_host`). The gathers and the
  scatter-adds are never opened: they enter only as arrays read at a row. The last statement needs no mathematics at
  all: both sides are the same operations applied to the same operands.
-/
import proofs.«168592_j7275674599805_2_alg».proof.Proof.Gen.ReferenceIdeal.Read
import proofs.«168592_j7275674599805_2_alg».proof.Proof.RowSpec
import Idealize.ShloMosaic.Lib.Pipeline.Value
import Idealize.ShloMosaic.Lib.ValueIdx
import Idealize.ShloMosaic.PureOps.Ideal.Laws

noncomputable section

namespace Cert.ReferenceIdeal.RefRows

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-! ## The edge stage: the joined row, the hidden row, the message -/

/-- The joined row of an edge holds the source node's features in its columns 0–127 … -/
theorem v18_src (x0 : (⟨S50000x128, .f32⟩ : BufTy).Contents (Elt Ideal))
    (x1 : (⟨S400000x64, .f32⟩ : BufTy).Contents (Elt Ideal)) (x3 : (⟨S2x400000, .i32⟩ : BufTy).Contents (Elt Ideal))
    (r : Fin 400000) (k : Fin 128) :
    val_main_v18 (F := Ideal) x0 x1 x3 (ix2 r (⟨k.val, by omega⟩ : Fin 320)) = val_main_v10 (F := Ideal) x0 x3 (ix2 r k) := by
  unfold val_main_v18
  refine concatenate_apply_piece (t := S400000x320) (1 : Fin 2)
    [⟨S400000x128, val_main_v10 (F := Ideal) x0 x3⟩, ⟨S400000x128, val_main_v17 (F := Ideal) x0 x3⟩, ⟨S400000x64, x1⟩]
    concatenates_S400000x128_S400000x128_S400000x64_S400000x320_d1
    _ 0 (by simp) S400000x128 _ rfl rfl 0 rfl (ix2 r k) ?_ ?_
  · intro b hb
    match b with
    | ⟨0, _⟩ => rfl
    | ⟨1, _⟩ => exact absurd rfl hb
  · exact Nat.zero_add _

/-- … the destination node's features in its columns 128–255 … -/
theorem v18_dst (x0 : (⟨S50000x128, .f32⟩ : BufTy).Contents (Elt Ideal))
    (x1 : (⟨S400000x64, .f32⟩ : BufTy).Contents (Elt Ideal)) (x3 : (⟨S2x400000, .i32⟩ : BufTy).Contents (Elt Ideal))
    (r : Fin 400000) (k : Fin 128) :
    val_main_v18 (F := Ideal) x0 x1 x3 (ix2 r (⟨128 + k.val, by omega⟩ : Fin 320)) = val_main_v17 (F := Ideal) x0 x3 (ix2 r k) := by
  unfold val_main_v18
  refine concatenate_apply_piece (t := S400000x320) (1 : Fin 2)
    [⟨S400000x128, val_main_v10 (F := Ideal) x0 x3⟩, ⟨S400000x128, val_main_v17 (F := Ideal) x0 x3⟩, ⟨S400000x64, x1⟩]
    concatenates_S400000x128_S400000x128_S400000x64_S400000x320_d1
    _ 1 (by simp) S400000x128 _ rfl rfl 128 rfl (ix2 r k) ?_ ?_
  · intro b hb
    match b with
    | ⟨0, _⟩ => rfl
    | ⟨1, _⟩ => exact absurd rfl hb
  · rfl

/-- … and the edge's own attributes in its columns 256–319. -/
theorem v18_edge (x0 : (⟨S50000x128, .f32⟩ : BufTy).Contents (Elt Ideal))
    (x1 : (⟨S400000x64, .f32⟩ : BufTy).Contents (Elt Ideal)) (x3 : (⟨S2x400000, .i32⟩ : BufTy).Contents (Elt Ideal))
    (r : Fin 400000) (k : Fin 64) :
    val_main_v18 (F := Ideal) x0 x1 x3 (ix2 r (⟨256 + k.val, by omega⟩ : Fin 320)) = x1 (ix2 r k) := by
  unfold val_main_v18
  refine concatenate_apply_piece (t := S400000x320) (1 : Fin 2)
    [⟨S400000x128, val_main_v10 (F := Ideal) x0 x3⟩, ⟨S400000x128, val_main_v17 (F := Ideal) x0 x3⟩, ⟨S400000x64, x1⟩]
    concatenates_S400000x128_S400000x128_S400000x64_S400000x320_d1
    _ 2 (by simp) S400000x64 _ rfl rfl 256 rfl (ix2 r k) ?_ ?_
  · intro b hb
    match b with
    | ⟨0, _⟩ => rfl
    | ⟨1, _⟩ => exact absurd rfl hb
  · rfl

/-! The generated reading lemmas name the positions they read as functions of the result's index; in coordinates they are
    the obvious ones: a product reads row `r` of its left operand and column `c` of its right one at the same `k`, and a
    bias is read at the column. -/

theorem lidx19_eq (r : Fin 400000) (c : Fin 128) (k : Fin 320) : lidx_main_v19 (ix2 r c) k = ix2 r k :=
  funext fun a => Fin.ext (by match a with | ⟨0, _⟩ => rfl | ⟨1, _⟩ => rfl)
theorem ridx19_eq (r : Fin 400000) (c : Fin 128) (k : Fin 320) : ridx_main_v19 (ix2 r c) k = ix2 k c :=
  funext fun a => Fin.ext (by match a with | ⟨0, _⟩ => rfl | ⟨1, _⟩ => rfl)
theorem idx21_eq (r : Fin 400000) (c : Fin 128) : idx_main_v20 (idx_main_v21 (ix2 r c)) = ix1 c :=
  funext fun a => Fin.ext (by match a with | ⟨0, _⟩ => rfl)

/-- The first linear map and its bias, at row `r` and column `c`: the sum over the 320 joined columns is the sum of
    its three bands, and each band of the joined row is one of its three sources. -/
theorem v22_row (x0 : (⟨S50000x128, .f32⟩ : BufTy).Contents (Elt Ideal))
    (x1 : (⟨S400000x64, .f32⟩ : BufTy).Contents (Elt Ideal)) (x3 : (⟨S2x400000, .i32⟩ : BufTy).Contents (Elt Ideal))
    (x4 : (⟨S320x128, .f32⟩ : BufTy).Contents (Elt Ideal)) (x5 : (⟨S128, .f32⟩ : BufTy).Contents (Elt Ideal))
    (r : Fin 400000) (c : Fin 128) :
    val_main_v22 (F := Ideal) x0 x1 x3 x4 x5 (ix2 r c) =
      Cert.RowSpec.hidden3 (fun j => val_main_v10 (F := Ideal) x0 x3 (ix2 r j)) (fun j => val_main_v17 (F := Ideal) x0 x3 (ix2 r j))
        (fun j => x1 (ix2 r j)) (fun j k => x4 (ix2 (⟨j.val, by omega⟩ : Fin 320) k))
        (fun j k => x4 (ix2 (⟨128 + j.val, by omega⟩ : Fin 320) k)) (fun j k => x4 (ix2 (⟨256 + j.val, by omega⟩ : Fin 320) k))
        (fun k => x5 (ix1 k)) c := by
  rw [val_main_v22_apply, val_main_v19_apply, val_main_v21_apply, val_main_v20_apply, Ideal.addf_def, Cert.RowSpec.sum_split3]
  simp only [lidx19_eq, ridx19_eq, idx21_eq, v18_src, v18_dst, v18_edge]
  rfl

/-- The first activation: the host writes `x · (1 / (1 + e^(-x)))`, which is `silu x`. -/
theorem v23_silu (x0 : (⟨S50000x128, .f32⟩ : BufTy).Contents (Elt Ideal))
    (x1 : (⟨S400000x64, .f32⟩ : BufTy).Contents (Elt Ideal)) (x3 : (⟨S2x400000, .i32⟩ : BufTy).Contents (Elt Ideal))
    (x4 : (⟨S320x128, .f32⟩ : BufTy).Contents (Elt Ideal)) (x5 : (⟨S128, .f32⟩ : BufTy).Contents (Elt Ideal))
    (i : S400000x128.Idx) :
    val_main_v23 (F := Ideal) x0 x1 x3 x4 x5 i = Cert.RowSpec.silu (val_main_v22 (F := Ideal) x0 x1 x3 x4 x5 i) := by
  rw [val_main_v23_apply, val_main_call0_v5_apply, val_main_call0_v4_apply, val_main_call0_cst_0_apply, val_main_call0_v3_apply,
    val_main_call0_v2_apply, val_main_call0_cst_apply, val_main_call0_v1_apply, val_main_call0_v0_apply]
  exact Cert.RowSpec.silu_host _

/-- The second activation, likewise. -/
theorem v28_silu (x0 : (⟨S50000x128, .f32⟩ : BufTy).Contents (Elt Ideal))
    (x1 : (⟨S400000x64, .f32⟩ : BufTy).Contents (Elt Ideal)) (x3 : (⟨S2x400000, .i32⟩ : BufTy).Contents (Elt Ideal))
    (x4 : (⟨S320x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (i : S400000x128.Idx) :
    val_main_v28 (F := Ideal) x0 x1 x3 x4 x5 x6 x7 i = Cert.RowSpec.silu (val_main_v27 (F := Ideal) x0 x1 x3 x4 x5 x6 x7 i) := by
  rw [val_main_v28_apply, val_main_call1_v5_apply, val_main_call1_v4_apply, val_main_call1_cst_0_apply, val_main_call1_v3_apply,
    val_main_call1_v2_apply, val_main_call1_cst_apply, val_main_call1_v1_apply, val_main_call1_v0_apply]
  exact Cert.RowSpec.silu_host _

theorem lidx24_eq (r : Fin 400000) (c : Fin 128) (k : Fin 128) : lidx_main_v24 (ix2 r c) k = ix2 r k :=
  funext fun a => Fin.ext (by match a with | ⟨0, _⟩ => rfl | ⟨1, _⟩ => rfl)
theorem ridx24_eq (r : Fin 400000) (c : Fin 128) (k : Fin 128) : ridx_main_v24 (ix2 r c) k = ix2 k c :=
  funext fun a => Fin.ext (by match a with | ⟨0, _⟩ => rfl | ⟨1, _⟩ => rfl)
theorem idx26_eq (r : Fin 400000) (c : Fin 128) : idx_main_v25 (idx_main_v26 (ix2 r c)) = ix1 c :=
  funext fun a => Fin.ext (by match a with | ⟨0, _⟩ => rfl)

/-- **The message of an edge.** Entry `(e, c)` of the reference's message array is `RowSpec.msg` of edge `e`'s hidden row,
    itself `RowSpec.hidden3` of the two gathered feature rows and the attribute row of that edge. -/
theorem ref_msg (x0 : (⟨S50000x128, .f32⟩ : BufTy).Contents (Elt Ideal))
    (x1 : (⟨S400000x64, .f32⟩ : BufTy).Contents (Elt Ideal)) (x3 : (⟨S2x400000, .i32⟩ : BufTy).Contents (Elt Ideal))
    (x4 : (⟨S320x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    val_main_v28 (F := Ideal) x0 x1 x3 x4 x5 x6 x7 = fun i =>
      Cert.RowSpec.msg
        (Cert.RowSpec.hidden3 (fun j => val_main_v10 (F := Ideal) x0 x3 (ix2 (i 0) j))
          (fun j => val_main_v17 (F := Ideal) x0 x3 (ix2 (i 0) j)) (fun j => x1 (ix2 (i 0) j))
          (fun j k => x4 (ix2 (⟨j.val, by omega⟩ : Fin 320) k)) (fun j k => x4 (ix2 (⟨128 + j.val, by omega⟩ : Fin 320) k))
          (fun j k => x4 (ix2 (⟨256 + j.val, by omega⟩ : Fin 320) k)) (fun k => x5 (ix1 k)))
        (fun k c => x6 (ix2 k c)) (fun c => x7 (ix1 c)) (i 1) := by
  funext i
  obtain ⟨r, c, rfl⟩ : ∃ (r : Fin 400000) (c : Fin 128), i = ix2 r c := ⟨i 0, i 1, eq_ix2 i⟩
  rw [v28_silu, val_main_v27_apply, val_main_v24_apply, val_main_v26_apply, val_main_v25_apply, Ideal.addf_def]
  simp only [lidx24_eq, ridx24_eq, idx26_eq, v23_silu, v22_row]
  rfl

/-! ## The coordinate weight of an edge -/

/-- The activation of the coordinate branch. -/
theorem v47_silu (x0 : (⟨S50000x128, .f32⟩ : BufTy).Contents (Elt Ideal))
    (x1 : (⟨S400000x64, .f32⟩ : BufTy).Contents (Elt Ideal)) (x3 : (⟨S2x400000, .i32⟩ : BufTy).Contents (Elt Ideal))
    (x4 : (⟨S320x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x12 : (⟨S128x64, .f32⟩ : BufTy).Contents (Elt Ideal)) (x13 : (⟨S64, .f32⟩ : BufTy).Contents (Elt Ideal))
    (i : S400000x64.Idx) :
    val_main_v47 (F := Ideal) x0 x1 x3 x4 x5 x6 x7 x12 x13 i = Cert.RowSpec.silu (val_main_v46 (F := Ideal) x0 x1 x3 x4 x5 x6 x7 x12 x13 i) := by
  rw [val_main_v47_apply, val_main_call3_v5_apply, val_main_call3_v4_apply, val_main_call3_cst_0_apply, val_main_call3_v3_apply,
    val_main_call3_v2_apply, val_main_call3_cst_apply, val_main_call3_v1_apply, val_main_call3_v0_apply]
  exact Cert.RowSpec.silu_host _

theorem lidx43_eq (r : Fin 400000) (c : Fin 64) (k : Fin 128) : lidx_main_v43 (ix2 r c) k = ix2 r k :=
  funext fun a => Fin.ext (by match a with | ⟨0, _⟩ => rfl | ⟨1, _⟩ => rfl)
theorem ridx43_eq (r : Fin 400000) (c : Fin 64) (k : Fin 128) : ridx_main_v43 (ix2 r c) k = ix2 k c :=
  funext fun a => Fin.ext (by match a with | ⟨0, _⟩ => rfl | ⟨1, _⟩ => rfl)
theorem idx45_eq (r : Fin 400000) (c : Fin 64) : idx_main_v44 (idx_main_v45 (ix2 r c)) = ix1 c :=
  funext fun a => Fin.ext (by match a with | ⟨0, _⟩ => rfl)
theorem lidx48_eq (r : Fin 400000) (k : Fin 64) : lidx_main_v48 (ix2 r (0 : Fin 1)) k = ix2 r k :=
  funext fun a => Fin.ext (by match a with | ⟨0, _⟩ => rfl | ⟨1, _⟩ => rfl)
theorem ridx48_eq (r : Fin 400000) (k : Fin 64) : ridx_main_v48 (ix2 r (0 : Fin 1)) k = ix2 k (0 : Fin 1) :=
  funext fun a => Fin.ext (by match a with | ⟨0, _⟩ => rfl | ⟨1, _⟩ => rfl)
theorem idx50_eq (r : Fin 400000) : idx_main_v49 (idx_main_v50 (ix2 r (0 : Fin 1))) = ix1 (0 : Fin 1) :=
  funext fun a => Fin.ext (by match a with | ⟨0, _⟩ => rfl)

/-- **The coordinate weight of an edge** is `RowSpec.coordW` of the edge's message row: a linear map and bias, the
    activation, and a second linear map (to one column) and bias. -/
theorem ref_cw (x0 : (⟨S50000x128, .f32⟩ : BufTy).Contents (Elt Ideal))
    (x1 : (⟨S400000x64, .f32⟩ : BufTy).Contents (Elt Ideal)) (x3 : (⟨S2x400000, .i32⟩ : BufTy).Contents (Elt Ideal))
    (x4 : (⟨S320x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x12 : (⟨S128x64, .f32⟩ : BufTy).Contents (Elt Ideal)) (x13 : (⟨S64, .f32⟩ : BufTy).Contents (Elt Ideal))
    (x14 : (⟨S64x1, .f32⟩ : BufTy).Contents (Elt Ideal)) (x15 : (⟨S1, .f32⟩ : BufTy).Contents (Elt Ideal)) :
    val_main_v51 (F := Ideal) x0 x1 x3 x4 x5 x6 x7 x12 x13 x14 x15 = fun i =>
      Cert.RowSpec.coordW (fun j => val_main_v28 (F := Ideal) x0 x1 x3 x4 x5 x6 x7 (ix2 (i 0) j))
        (fun j k => x12 (ix2 j k)) (fun k => x13 (ix1 k)) (fun k => x14 (ix2 k (0 : Fin 1))) (x15 (ix1 (0 : Fin 1))) := by
  funext i
  obtain ⟨r, z, rfl⟩ : ∃ (r : Fin 400000) (z : Fin 1), i = ix2 r z := ⟨i 0, i 1, eq_ix2 i⟩
  obtain rfl : z = 0 := Subsingleton.elim _ _
  rw [val_main_v51_apply, val_main_v48_apply, val_main_v50_apply, val_main_v49_apply, Ideal.addf_def]
  simp only [lidx48_eq, ridx48_eq, idx50_eq, v47_silu, val_main_v46_apply, val_main_v43_apply, val_main_v45_apply,
    val_main_v44_apply, Ideal.addf_def, lidx43_eq, ridx43_eq, idx45_eq]
  generalize val_main_v28 (F := Ideal) x0 x1 x3 x4 x5 x6 x7 = g
  rfl

/-! ## The node stage -/

/-- The joined row of a node holds the node's features in its columns 0–127 … -/
theorem v32_self (x0 : (⟨S50000x128, .f32⟩ : BufTy).Contents (Elt Ideal))
    (x1 : (⟨S400000x64, .f32⟩ : BufTy).Contents (Elt Ideal)) (x3 : (⟨S2x400000, .i32⟩ : BufTy).Contents (Elt Ideal))
    (x4 : (⟨S320x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) (r : Fin 50000)
    (k : Fin 128) :
    val_main_v32 (F := Ideal) x0 x1 x3 x4 x5 x6 x7 (ix2 r (⟨k.val, by omega⟩ : Fin 256)) = x0 (ix2 r k) := by
  unfold val_main_v32
  refine concatenate_apply_piece (t := S50000x256) (1 : Fin 2)
    [⟨S50000x128, x0⟩, ⟨S50000x128, val_main_v31 (F := Ideal) x0 x1 x3 x4 x5 x6 x7⟩]
    concatenates_S50000x128_S50000x128_S50000x256_d1
    _ 0 (by simp) S50000x128 _ rfl rfl 0 rfl (ix2 r k) ?_ ?_
  · intro b hb
    match b with
    | ⟨0, _⟩ => rfl
    | ⟨1, _⟩ => exact absurd rfl hb
  · exact Nat.zero_add _

/-- … and its aggregated messages in its columns 128–255. -/
theorem v32_aggr (x0 : (⟨S50000x128, .f32⟩ : BufTy).Contents (Elt Ideal))
    (x1 : (⟨S400000x64, .f32⟩ : BufTy).Contents (Elt Ideal)) (x3 : (⟨S2x400000, .i32⟩ : BufTy).Contents (Elt Ideal))
    (x4 : (⟨S320x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) (r : Fin 50000)
    (k : Fin 128) :
    val_main_v32 (F := Ideal) x0 x1 x3 x4 x5 x6 x7 (ix2 r (⟨128 + k.val, by omega⟩ : Fin 256)) =
      val_main_v31 (F := Ideal) x0 x1 x3 x4 x5 x6 x7 (ix2 r k) := by
  unfold val_main_v32
  refine concatenate_apply_piece (t := S50000x256) (1 : Fin 2)
    [⟨S50000x128, x0⟩, ⟨S50000x128, val_main_v31 (F := Ideal) x0 x1 x3 x4 x5 x6 x7⟩]
    concatenates_S50000x128_S50000x128_S50000x256_d1
    _ 1 (by simp) S50000x128 _ rfl rfl 128 rfl (ix2 r k) ?_ ?_
  · intro b hb
    match b with
    | ⟨0, _⟩ => rfl
    | ⟨1, _⟩ => exact absurd rfl hb
  · rfl

/-- The activation of the node branch. -/
theorem v37_silu (x0 : (⟨S50000x128, .f32⟩ : BufTy).Contents (Elt Ideal))
    (x1 : (⟨S400000x64, .f32⟩ : BufTy).Contents (Elt Ideal)) (x3 : (⟨S2x400000, .i32⟩ : BufTy).Contents (Elt Ideal))
    (x4 : (⟨S320x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S256x128, .f32⟩ : BufTy).Contents (Elt Ideal)) (x9 : (⟨S128, .f32⟩ : BufTy).Contents (Elt Ideal))
    (i : S50000x128.Idx) :
    val_main_v37 (F := Ideal) x0 x1 x3 x4 x5 x6 x7 x8 x9 i = Cert.RowSpec.silu (val_main_v36 (F := Ideal) x0 x1 x3 x4 x5 x6 x7 x8 x9 i) := by
  rw [val_main_v37_apply, val_main_call2_v5_apply, val_main_call2_v4_apply, val_main_call2_cst_0_apply, val_main_call2_v3_apply,
    val_main_call2_v2_apply, val_main_call2_cst_apply, val_main_call2_v1_apply, val_main_call2_v0_apply]
  exact Cert.RowSpec.silu_host _

theorem lidx33_eq (r : Fin 50000) (c : Fin 128) (k : Fin 256) : lidx_main_v33 (ix2 r c) k = ix2 r k :=
  funext fun a => Fin.ext (by match a with | ⟨0, _⟩ => rfl | ⟨1, _⟩ => rfl)
theorem ridx33_eq (r : Fin 50000) (c : Fin 128) (k : Fin 256) : ridx_main_v33 (ix2 r c) k = ix2 k c :=
  funext fun a => Fin.ext (by match a with | ⟨0, _⟩ => rfl | ⟨1, _⟩ => rfl)
theorem idx35_eq (r : Fin 50000) (c : Fin 128) : idx_main_v34 (idx_main_v35 (ix2 r c)) = ix1 c :=
  funext fun a => Fin.ext (by match a with | ⟨0, _⟩ => rfl)
theorem lidx38_eq (r : Fin 50000) (c : Fin 128) (k : Fin 128) : lidx_main_v38 (ix2 r c) k = ix2 r k :=
  funext fun a => Fin.ext (by match a with | ⟨0, _⟩ => rfl | ⟨1, _⟩ => rfl)
theorem ridx38_eq (r : Fin 50000) (c : Fin 128) (k : Fin 128) : ridx_main_v38 (ix2 r c) k = ix2 k c :=
  funext fun a => Fin.ext (by match a with | ⟨0, _⟩ => rfl | ⟨1, _⟩ => rfl)
theorem idx40_eq (r : Fin 50000) (c : Fin 128) : idx_main_v39 (idx_main_v40 (ix2 r c)) = ix1 c :=
  funext fun a => Fin.ext (by match a with | ⟨0, _⟩ => rfl)

/-- The node branch's first linear map and bias at row `r`, column `c`: the sum over the 256 joined columns is the sum of
    its two bands, the node's own features and its aggregated messages. -/
theorem v36_row (x0 : (⟨S50000x128, .f32⟩ : BufTy).Contents (Elt Ideal))
    (x1 : (⟨S400000x64, .f32⟩ : BufTy).Contents (Elt Ideal)) (x3 : (⟨S2x400000, .i32⟩ : BufTy).Contents (Elt Ideal))
    (x4 : (⟨S320x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S256x128, .f32⟩ : BufTy).Contents (Elt Ideal)) (x9 : (⟨S128, .f32⟩ : BufTy).Contents (Elt Ideal)) (r : Fin 50000)
    (c : Fin 128) :
    val_main_v36 (F := Ideal) x0 x1 x3 x4 x5 x6 x7 x8 x9 (ix2 r c) =
      (∑ j : Fin 128, x0 (ix2 r j) * x8 (ix2 (⟨j.val, by omega⟩ : Fin 256) c))
        + (∑ j : Fin 128, val_main_v31 (F := Ideal) x0 x1 x3 x4 x5 x6 x7 (ix2 r j) * x8 (ix2 (⟨128 + j.val, by omega⟩ : Fin 256) c))
        + x9 (ix1 c) := by
  rw [val_main_v36_apply, val_main_v33_apply, val_main_v35_apply, val_main_v34_apply, Ideal.addf_def, Cert.RowSpec.sum_split2]
  simp only [lidx33_eq, ridx33_eq, idx35_eq, v32_self, v32_aggr]

/-- **The updated features of a node** are `RowSpec.nodeOut` of the node's feature row and its aggregated-message row. -/
theorem ref_node (x0 : (⟨S50000x128, .f32⟩ : BufTy).Contents (Elt Ideal))
    (x1 : (⟨S400000x64, .f32⟩ : BufTy).Contents (Elt Ideal)) (x3 : (⟨S2x400000, .i32⟩ : BufTy).Contents (Elt Ideal))
    (x4 : (⟨S320x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S256x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal)) :
    val_main_v42 (F := Ideal) x0 x1 x3 x4 x5 x6 x7 x8 x9 x10 x11 = fun i =>
      Cert.RowSpec.nodeOut (fun j => x0 (ix2 (i 0) j)) (fun j => val_main_v31 (F := Ideal) x0 x1 x3 x4 x5 x6 x7 (ix2 (i 0) j))
        (fun j k => x8 (ix2 (⟨j.val, by omega⟩ : Fin 256) k)) (fun j k => x8 (ix2 (⟨128 + j.val, by omega⟩ : Fin 256) k))
        (fun k => x9 (ix1 k)) (fun k c => x10 (ix2 k c)) (fun c => x11 (ix1 c)) (i 1) := by
  funext i
  obtain ⟨r, c, rfl⟩ : ∃ (r : Fin 50000) (c : Fin 128), i = ix2 r c := ⟨i 0, i 1, eq_ix2 i⟩
  rw [val_main_v42_apply, val_main_v41_apply, val_main_v38_apply, val_main_v40_apply, val_main_v39_apply, Ideal.addf_def,
    Ideal.addf_def]
  simp only [lidx38_eq, ridx38_eq, idx40_eq, v37_silu, v36_row]
  generalize val_main_v31 (F := Ideal) x0 x1 x3 x4 x5 x6 x7 = ag
  rfl

/-! ## The coordinate tail, as a function of the edges' coordinate weights -/

/-- The coordinate update as a function of the coordinate weights `cw` (one per edge): the difference of the two
    endpoints' coordinates (two gathers at the edge's endpoints, each endpoint index wrapped once if negative), divided by
    its Euclidean norm plus a small constant, scaled by the edge's weight, scatter-added into zeros at the destination
    endpoints, and added to the coordinates. -/
def coordTail (x2 : (⟨S50000x3, .f32⟩ : BufTy).Contents (Elt Ideal)) (x3 : (⟨S2x400000, .i32⟩ : BufTy).Contents (Elt Ideal))
    (cw : (⟨S400000x1, .f32⟩ : BufTy).Contents (Elt Ideal)) : (⟨S50000x3, .f32⟩ : BufTy).Contents (Elt Ideal) :=
  addf (F := Ideal) x2
    (Host.scatterAdd (F := Ideal) scatter_S50000x3_S400000x1_S400000x3_1_0_0_1
      (broadcastInDim S50000x3 ![] bcast_S_S50000x3 (constant (F := Ideal) S_ .f32 0x00000000#32))
      (broadcastInDim S400000x1 ![0] bcast_S400000_S400000x1_0 (val_main_v3 (F := Ideal) x3))
      (mulf (F := Ideal) (broadcastInDim S400000x3 ![0, 1] bcast_S400000x1_S400000x3_0_1 cw)
        (Host.divf (F := Ideal)
          (subf (F := Ideal)
            (Host.gather gather_S50000x3_S400000x1_S400000x3_1_0_n_n_0_1_13 x2
              (broadcastInDim S400000x1 ![0] bcast_S400000_S400000x1_0
                (select (cmpi .slt (val_main_v1 (F := Ideal) x3) (broadcastInDim S400000 ![] bcast_S_S400000 (constantI S_ 32 0#32)))
                  (addi (val_main_v1 (F := Ideal) x3) (broadcastInDim S400000 ![] bcast_S_S400000 (constantI S_ 32 50000#32)))
                  (val_main_v1 (F := Ideal) x3))))
            (Host.gather gather_S50000x3_S400000x1_S400000x3_1_0_n_n_0_1_13 x2
              (broadcastInDim S400000x1 ![0] bcast_S400000_S400000x1_0
                (select (cmpi .slt (val_main_v3 (F := Ideal) x3) (broadcastInDim S400000 ![] bcast_S_S400000 (constantI S_ 32 0#32)))
                  (addi (val_main_v3 (F := Ideal) x3) (broadcastInDim S400000 ![] bcast_S_S400000 (constantI S_ 32 50000#32)))
                  (val_main_v3 (F := Ideal) x3)))))
          (broadcastInDim S400000x3 ![0, 1] bcast_S400000x1_S400000x3_0_1
            (addf (F := Ideal)
              (Host.sqrt (F := Ideal)
                (broadcastInDim S400000x1 ![0] bcast_S400000_S400000x1_0
                  (Host.reduceAdd (F := Ideal)
                    (mulf (F := Ideal)
                      (subf (F := Ideal)
                        (Host.gather gather_S50000x3_S400000x1_S400000x3_1_0_n_n_0_1_13 x2
                          (broadcastInDim S400000x1 ![0] bcast_S400000_S400000x1_0
                            (select (cmpi .slt (val_main_v1 (F := Ideal) x3) (broadcastInDim S400000 ![] bcast_S_S400000 (constantI S_ 32 0#32)))
                              (addi (val_main_v1 (F := Ideal) x3) (broadcastInDim S400000 ![] bcast_S_S400000 (constantI S_ 32 50000#32)))
                              (val_main_v1 (F := Ideal) x3))))
                        (Host.gather gather_S50000x3_S400000x1_S400000x3_1_0_n_n_0_1_13 x2
                          (broadcastInDim S400000x1 ![0] bcast_S400000_S400000x1_0
                            (select (cmpi .slt (val_main_v3 (F := Ideal) x3) (broadcastInDim S400000 ![] bcast_S_S400000 (constantI S_ 32 0#32)))
                              (addi (val_main_v3 (F := Ideal) x3) (broadcastInDim S400000 ![] bcast_S_S400000 (constantI S_ 32 50000#32)))
                              (val_main_v3 (F := Ideal) x3)))))
                      (subf (F := Ideal)
                        (Host.gather gather_S50000x3_S400000x1_S400000x3_1_0_n_n_0_1_13 x2
                          (broadcastInDim S400000x1 ![0] bcast_S400000_S400000x1_0
                            (select (cmpi .slt (val_main_v1 (F := Ideal) x3) (broadcastInDim S400000 ![] bcast_S_S400000 (constantI S_ 32 0#32)))
                              (addi (val_main_v1 (F := Ideal) x3) (broadcastInDim S400000 ![] bcast_S_S400000 (constantI S_ 32 50000#32)))
                              (val_main_v1 (F := Ideal) x3))))
                        (Host.gather gather_S50000x3_S400000x1_S400000x3_1_0_n_n_0_1_13 x2
                          (broadcastInDim S400000x1 ![0] bcast_S400000_S400000x1_0
                            (select (cmpi .slt (val_main_v3 (F := Ideal) x3) (broadcastInDim S400000 ![] bcast_S_S400000 (constantI S_ 32 0#32)))
                              (addi (val_main_v3 (F := Ideal) x3) (broadcastInDim S400000 ![] bcast_S_S400000 (constantI S_ 32 50000#32)))
                              (val_main_v3 (F := Ideal) x3))))))
                    (constant (F := Ideal) S_ .f32 0x00000000#32) reducesTo_S400000x3_S400000_d1 h_S_)))
              (broadcastInDim S400000x1 ![] bcast_S_S400000x1 (constant (F := Ideal) S_ .f32 0x322BCC77#32)))))))

/-- The reference's updated coordinates are that function of the reference's coordinate weights: the two sides are the
    same operations on the same operands. -/
theorem ref_tail (x0 : (⟨S50000x128, .f32⟩ : BufTy).Contents (Elt Ideal))
    (x1 : (⟨S400000x64, .f32⟩ : BufTy).Contents (Elt Ideal)) (x2 : (⟨S50000x3, .f32⟩ : BufTy).Contents (Elt Ideal))
    (x3 : (⟨S2x400000, .i32⟩ : BufTy).Contents (Elt Ideal)) (x4 : (⟨S320x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x12 : (⟨S128x64, .f32⟩ : BufTy).Contents (Elt Ideal))
    (x13 : (⟨S64, .f32⟩ : BufTy).Contents (Elt Ideal)) (x14 : (⟨S64x1, .f32⟩ : BufTy).Contents (Elt Ideal))
    (x15 : (⟨S1, .f32⟩ : BufTy).Contents (Elt Ideal)) :
    val_main_v77 (F := Ideal) x0 x1 x2 x3 x4 x5 x6 x7 x12 x13 x14 x15 =
      coordTail x2 x3 (val_main_v51 (F := Ideal) x0 x1 x3 x4 x5 x6 x7 x12 x13 x14 x15) := by
  unfold coordTail val_main_v77 val_main_v76 val_main_v75 val_main_v74 val_main_cst_8 val_main_v73 val_main_v72 val_main_v71 val_main_v70
    val_main_v69 val_main_v68 val_main_cst_7 val_main_v67 val_main_call4_v2 val_main_call4_v1 val_main_call4_cst val_main_call4_v0
    val_main_v66 val_main_v65 val_main_v64 val_main_v63 val_main_v62 val_main_v61 val_main_c_6 val_main_v60 val_main_v59 val_main_c_5
    val_main_v58 val_main_v57 val_main_v56 val_main_v55 val_main_v54 val_main_c_4 val_main_v53 val_main_v52 val_main_c_3
  rfl

end Cert.ReferenceIdeal.RefRows

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.Blocks.lean ====
/-
  The two kernels' bodies, read at one entry.

  The edge kernel's body takes a block of 4000 edges: rows of the source features, the destination features and the edge
  attributes, the three row bands of the first weight matrix (loaded as three separate blocks), and the other weights
  and biases (each bias a [1, n] row, broadcast down the block). Its first stored value, at (p, c), is the message of the
  block's p-th edge (`RowSpec.msg` of `RowSpec.hidden3` of row p); its second stored value, at (p, 0), is that edge's
  coordinate weight (`RowSpec.coordW` of the message row). The node kernel's body takes a block of 5000 nodes: their
  features, their aggregated messages, the two bands of its first matrix; its stored value at (p, c) is
  `RowSpec.nodeOut` of row p.

  Over the extended reals a rounding to a narrower format is the identity and every matrix product into a zero
  accumulator is the plain sum over the contracted axis, so each entry is literally the row function: no algebra is
  needed, only reading each operation at an index.
-/
import proofs.«168592_j7275674599805_2_alg».proof.Proof.Gen.KernelIdeal.Skeleton
import proofs.«168592_j7275674599805_2_alg».proof.Proof.LibDenseLayer
import proofs.«168592_j7275674599805_2_alg».proof.Proof.RowSpec
import Idealize.ShloMosaic.Lib.Pipeline.Value
import Idealize.ShloMosaic.Lib.ValueIdx
import Idealize.ShloMosaic.PureOps.Ideal.Laws

noncomputable section

namespace Cert.KernelIdeal.Blocks

open Idealize.ShloMosaic Idealize.ShloMosaic.ValueIdx Cert.KernelIdeal Cert.KernelIdeal.Gen

/-- A [1, B] row broadcast down A rows, read at (p, c), is the row at c. -/
theorem rowBcast_apply {α : Type} {A B : ℕ} (x : (⟨2, ![1, B]⟩ : Shape).Idx → α)
    (h : (⟨2, ![1, B]⟩ : Shape).Broadcasts ⟨2, ![A, B]⟩) (p : Fin A) (c : Fin B) :
    broadcastTo ⟨2, ![A, B]⟩ x h (ix2 p c) = x (ix2 (0 : Fin 1) c) :=
  broadcastTo_apply x h (ix2 p c) (ix2 (0 : Fin 1) c) (fun a => by
    match a with
    | ⟨0, _⟩ => exact (if_pos rfl).symm
    | ⟨1, _⟩ =>
      show c.val = if B = 1 then 0 else c.val
      split
      · have := c.isLt; omega
      · rfl)

/-- The logistic function of a vector, read at an index. -/
theorem logistic_apply {s : Shape} {φ : FTy} (a : FVec Ideal s φ) (i : s.Idx) :
    logistic a i = Ideal.logistic (a i) := rfl

/-- The product of an [4000, 128] by a [128, 128] block into a zero accumulator, read at (p, q). -/
theorem mm_edge_sq {φ₁ φ₂ : FTy} (L : FVec Ideal S4000x128 φ₁) (R : FVec Ideal S128x128 φ₂) (p : Fin 4000) (q : Fin 128) :
    FloatOps.matmul dot_S4000x128_S128x128_S4000x128_1_0_0_1_n_n none L R (constant S4000x128 .f32 0x00000000#32) (ix2 p q)
      = ∑ k : Fin 128, L (ix2 p k) * R (ix2 k q) :=
  Cert.DenseLayer.matmul_rows_cols dot_S4000x128_S128x128_S4000x128_1_0_0_1_n_n rfl rfl
    (fun i q => by
      unfold DotDims.lhsIdx
      rw [dif_neg (show ¬(0 : Fin S4000x128.rank) ∈ dot_S4000x128_S128x128_S4000x128_1_0_0_1_n_n.lhsBatch by decide),
        dif_pos (show (0 : Fin S4000x128.rank) ∈ dot_S4000x128_S128x128_S4000x128_1_0_0_1_n_n.lhsNonContracting by decide)]
      rfl)
    (fun i q => dot_S4000x128_S128x128_S4000x128_1_0_0_1_n_n.lhsIdx_val_of_single rfl i q)
    (fun i q => dot_S4000x128_S128x128_S4000x128_1_0_0_1_n_n.rhsIdx_val_of_single rfl i q)
    (fun i q => by
      unfold DotDims.rhsIdx
      rw [dif_neg (show ¬(1 : Fin S128x128.rank) ∈ dot_S4000x128_S128x128_S4000x128_1_0_0_1_n_n.rhsBatch by decide),
        dif_pos (show (1 : Fin S128x128.rank) ∈ dot_S4000x128_S128x128_S4000x128_1_0_0_1_n_n.rhsNonContracting by decide)]
      rfl)
    none L R p q

/-- The product of an [4000, 64] by a [64, 128] block into a zero accumulator, read at (p, q). -/
theorem mm_edge_attr {φ₁ φ₂ : FTy} (L : FVec Ideal S4000x64 φ₁) (R : FVec Ideal S64x128 φ₂) (p : Fin 4000) (q : Fin 128) :
    FloatOps.matmul dot_S4000x64_S64x128_S4000x128_1_0_0_1_n_n none L R (constant S4000x128 .f32 0x00000000#32) (ix2 p q)
      = ∑ k : Fin 64, L (ix2 p k) * R (ix2 k q) :=
  Cert.DenseLayer.matmul_rows_cols dot_S4000x64_S64x128_S4000x128_1_0_0_1_n_n rfl rfl
    (fun i q => by
      unfold DotDims.lhsIdx
      rw [dif_neg (show ¬(0 : Fin S4000x64.rank) ∈ dot_S4000x64_S64x128_S4000x128_1_0_0_1_n_n.lhsBatch by decide),
        dif_pos (show (0 : Fin S4000x64.rank) ∈ dot_S4000x64_S64x128_S4000x128_1_0_0_1_n_n.lhsNonContracting by decide)]
      rfl)
    (fun i q => dot_S4000x64_S64x128_S4000x128_1_0_0_1_n_n.lhsIdx_val_of_single rfl i q)
    (fun i q => dot_S4000x64_S64x128_S4000x128_1_0_0_1_n_n.rhsIdx_val_of_single rfl i q)
    (fun i q => by
      unfold DotDims.rhsIdx
      rw [dif_neg (show ¬(1 : Fin S64x128.rank) ∈ dot_S4000x64_S64x128_S4000x128_1_0_0_1_n_n.rhsBatch by decide),
        dif_pos (show (1 : Fin S64x128.rank) ∈ dot_S4000x64_S64x128_S4000x128_1_0_0_1_n_n.rhsNonContracting by decide)]
      rfl)
    none L R p q

/-- The product of an [4000, 128] by a [128, 64] block into a zero accumulator, read at (p, q). -/
theorem mm_coord1 {φ₁ φ₂ : FTy} (L : FVec Ideal S4000x128 φ₁) (R : FVec Ideal S128x64 φ₂) (p : Fin 4000) (q : Fin 64) :
    FloatOps.matmul dot_S4000x128_S128x64_S4000x64_1_0_0_1_n_n none L R (constant S4000x64 .f32 0x00000000#32) (ix2 p q)
      = ∑ k : Fin 128, L (ix2 p k) * R (ix2 k q) :=
  Cert.DenseLayer.matmul_rows_cols dot_S4000x128_S128x64_S4000x64_1_0_0_1_n_n rfl rfl
    (fun i q => by
      unfold DotDims.lhsIdx
      rw [dif_neg (show ¬(0 : Fin S4000x128.rank) ∈ dot_S4000x128_S128x64_S4000x64_1_0_0_1_n_n.lhsBatch by decide),
        dif_pos (show (0 : Fin S4000x128.rank) ∈ dot_S4000x128_S128x64_S4000x64_1_0_0_1_n_n.lhsNonContracting by decide)]
      rfl)
    (fun i q => dot_S4000x128_S128x64_S4000x64_1_0_0_1_n_n.lhsIdx_val_of_single rfl i q)
    (fun i q => dot_S4000x128_S128x64_S4000x64_1_0_0_1_n_n.rhsIdx_val_of_single rfl i q)
    (fun i q => by
      unfold DotDims.rhsIdx
      rw [dif_neg (show ¬(1 : Fin S128x64.rank) ∈ dot_S4000x128_S128x64_S4000x64_1_0_0_1_n_n.rhsBatch by decide),
        dif_pos (show (1 : Fin S128x64.rank) ∈ dot_S4000x128_S128x64_S4000x64_1_0_0_1_n_n.rhsNonContracting by decide)]
      rfl)
    none L R p q

/-- The product of an [4000, 64] by a [64, 1] block into a zero accumulator, read at (p, q). -/
theorem mm_coord2 {φ₁ φ₂ : FTy} (L : FVec Ideal S4000x64 φ₁) (R : FVec Ideal S64x1 φ₂) (p : Fin 4000) (q : Fin 1) :
    FloatOps.matmul dot_S4000x64_S64x1_S4000x1_1_0_0_1_n_n none L R (constant S4000x1 .f32 0x00000000#32) (ix2 p q)
      = ∑ k : Fin 64, L (ix2 p k) * R (ix2 k q) :=
  Cert.DenseLayer.matmul_rows_cols dot_S4000x64_S64x1_S4000x1_1_0_0_1_n_n rfl rfl
    (fun i q => by
      unfold DotDims.lhsIdx
      rw [dif_neg (show ¬(0 : Fin S4000x64.rank) ∈ dot_S4000x64_S64x1_S4000x1_1_0_0_1_n_n.lhsBatch by decide),
        dif_pos (show (0 : Fin S4000x64.rank) ∈ dot_S4000x64_S64x1_S4000x1_1_0_0_1_n_n.lhsNonContracting by decide)]
      rfl)
    (fun i q => dot_S4000x64_S64x1_S4000x1_1_0_0_1_n_n.lhsIdx_val_of_single rfl i q)
    (fun i q => dot_S4000x64_S64x1_S4000x1_1_0_0_1_n_n.rhsIdx_val_of_single rfl i q)
    (fun i q => by
      unfold DotDims.rhsIdx
      rw [dif_neg (show ¬(1 : Fin S64x1.rank) ∈ dot_S4000x64_S64x1_S4000x1_1_0_0_1_n_n.rhsBatch by decide),
        dif_pos (show (1 : Fin S64x1.rank) ∈ dot_S4000x64_S64x1_S4000x1_1_0_0_1_n_n.rhsNonContracting by decide)]
      rfl)
    none L R p q

/-- The product of an [5000, 128] by a [128, 128] block into a zero accumulator, read at (p, q). -/
theorem mm_node {φ₁ φ₂ : FTy} (L : FVec Ideal S5000x128 φ₁) (R : FVec Ideal S128x128 φ₂) (p : Fin 5000) (q : Fin 128) :
    FloatOps.matmul dot_S5000x128_S128x128_S5000x128_1_0_0_1_n_n none L R (constant S5000x128 .f32 0x00000000#32) (ix2 p q)
      = ∑ k : Fin 128, L (ix2 p k) * R (ix2 k q) :=
  Cert.DenseLayer.matmul_rows_cols dot_S5000x128_S128x128_S5000x128_1_0_0_1_n_n rfl rfl
    (fun i q => by
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl)
    (fun i q => dot_S5000x128_S128x128_S5000x128_1_0_0_1_n_n.lhsIdx_val_of_single rfl i q)
    (fun i q => dot_S5000x128_S128x128_S5000x128_1_0_0_1_n_n.rhsIdx_val_of_single rfl i q)
    (fun i q => by
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
    none L R p q

/-- The edge kernel's first stored value at (p, c): the message of the block's p-th edge. -/
theorem msg_apply (v0 v2 : Vec Ideal S4000x128 .bf16) (v4 : Vec Ideal S4000x64 .bf16) (v6 v9 : Vec Ideal S128x128 .bf16)
    (v13 : Vec Ideal S64x128 .bf16) (v17 : Vec Ideal S1x128 .f32) (v24 : Vec Ideal S128x128 .bf16)
    (v27 : Vec Ideal S1x128 .f32) (p : Fin 4000) (c : Fin 128) :
    k0_pay2 (F := Ideal) v0 v2 v4 v6 v9 v13 v17 v24 v27 (ix2 p c)
      = Cert.RowSpec.msg (Cert.RowSpec.hidden3 (fun j => v0 (ix2 p j)) (fun j => v2 (ix2 p j)) (fun j => v4 (ix2 p j))
          (fun j k => v6 (ix2 j k)) (fun j k => v9 (ix2 j k)) (fun j k => v13 (ix2 j k)) (fun k => v17 (ix2 (0 : Fin 1) k)))
          (fun k c => v24 (ix2 k c)) (fun c => v27 (ix2 (0 : Fin 1) c)) c := by
  unfold k0_pay2
  simp only [shapeCast_self, mulf_apply, addf_apply, logistic_apply, truncf_apply, mm_edge_sq, mm_edge_attr, rowBcast_apply]
  rfl

/-- The edge kernel's second stored value at (p, 0): the coordinate weight of the block's p-th edge, from the message
    block `g`. -/
theorem coordW_apply (g : FVec Ideal S4000x128 .f32) (v35 : Vec Ideal S128x64 .bf16) (v38 : Vec Ideal S1x64 .f32)
    (v45 : Vec Ideal S64x1 .bf16) (v48 : Vec Ideal S1x1 .f32) (p : Fin 4000) (z : Fin 1) :
    k0_pay1 (F := Ideal) g v35 v38 v45 v48 (ix2 p z)
      = Cert.RowSpec.coordW (fun j => g (ix2 p j)) (fun j k => v35 (ix2 j k)) (fun k => v38 (ix2 (0 : Fin 1) k))
          (fun k => v45 (ix2 k (0 : Fin 1))) (v48 (ix2 (0 : Fin 1) (0 : Fin 1))) := by
  obtain rfl : z = 0 := Subsingleton.elim _ _
  unfold k0_pay1
  simp only [shapeCast_self, mulf_apply, addf_apply, logistic_apply, truncf_apply, mm_coord1, mm_coord2, rowBcast_apply]
  rfl

/-- The node kernel's stored value at (p, c): the updated features of the block's p-th node. -/
theorem nodeOut_apply (v0 v1 : Vec Ideal S5000x128 .f32) (v5 v8 : Vec Ideal S128x128 .bf16) (v12 : Vec Ideal S1x128 .f32)
    (v19 : Vec Ideal S128x128 .bf16) (v22 : Vec Ideal S1x128 .f32) (p : Fin 5000) (c : Fin 128) :
    k1_pay1 (F := Ideal) v0 v1 v5 v8 v12 v19 v22 (ix2 p c)
      = Cert.RowSpec.nodeOut (fun j => v0 (ix2 p j)) (fun j => v1 (ix2 p j)) (fun j k => v5 (ix2 j k))
          (fun j k => v8 (ix2 j k)) (fun k => v12 (ix2 (0 : Fin 1) k)) (fun k c => v19 (ix2 k c))
          (fun c => v22 (ix2 (0 : Fin 1) c)) c := by
  unfold k1_pay1
  simp only [shapeCast_self, mulf_apply, addf_apply, logistic_apply, truncf_apply, mm_node, rowBcast_apply]
  rfl

end Cert.KernelIdeal.Blocks

end
-- ==== Proof.EdgeArrays.lean ====
/-
  The edge kernel's grid as whole arrays.

  The grid has 100 points; point t works on edges 4000·t … 4000·t + 3999: its blocks of the gathered source features,
  destination features and edge attributes are those rows, every weight and bias block is the whole array, and it writes
  back those rows of the message array and of the coordinate-weight array. So a loaded rectangle of a block, read at a
  position, is the array at the matching coordinates (`rd0_…`: the block's row p is the array's row 4000·t + p; the
  three bands of the first weight matrix are its rows j, 128 + j and 256 + j), each point writes back exactly its rows of
  ONE whole-array function (`msg_block`, `flushed0_11`, `flushed0_12`), and the 100 row bands tile the 400000 rows
  (`cover0_…`). Hence after the grid the message array is `msgArr` and the coordinate-weight array `cwArr` of the arrays
  the region was entered with — whatever those are: everything here is stated for arbitrary entry contents `V`.
-/
import proofs.«168592_j7275674599805_2_alg».proof.Proof.Gen.KernelIdeal.Frame
import proofs.«168592_j7275674599805_2_alg».proof.Proof.Blocks
import Idealize.ShloMosaic.Lib.Pipeline.Value
import Idealize.ShloMosaic.Lib.ValueIdx

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The messages of all edges as one array: entry (e, c) is the message of edge `e`, from row `e` of the gathered
    source features `FS`, destination features `FD` and the edge attributes `EA`. -/
def msgArr (FS FD : S400000x128.Idx → EReal) (EA : S400000x64.Idx → EReal) (W1 : S320x128.Idx → EReal)
    (B1 : S1x128.Idx → EReal) (W2 : S128x128.Idx → EReal) (B2 : S1x128.Idx → EReal) : S400000x128.Idx → EReal :=
  fun i => Cert.RowSpec.msg (Cert.RowSpec.hidden3 (fun j => FS (ix2 (i 0) j)) (fun j => FD (ix2 (i 0) j))
      (fun j => EA (ix2 (i 0) j)) (fun j k => W1 (ix2 (⟨j.val, by omega⟩ : Fin 320) k))
      (fun j k => W1 (ix2 (⟨128 + j.val, by omega⟩ : Fin 320) k)) (fun j k => W1 (ix2 (⟨256 + j.val, by omega⟩ : Fin 320) k))
      (fun k => B1 (ix2 (0 : Fin 1) k))) (fun k c => W2 (ix2 k c)) (fun c => B2 (ix2 (0 : Fin 1) c)) (i 1)

/-- The coordinate weights of all edges as one array [E, 1], from the message array `G`. -/
def cwArr (G : S400000x128.Idx → EReal) (Wc1 : S128x64.Idx → EReal) (Bc1 : S1x64.Idx → EReal)
    (Wc2 : S64x1.Idx → EReal) (Bc2 : S1x1.Idx → EReal) : S400000x1.Idx → EReal :=
  fun i => Cert.RowSpec.coordW (fun j => G (ix2 (i 0) j)) (fun j k => Wc1 (ix2 j k)) (fun k => Bc1 (ix2 (0 : Fin 1) k))
      (fun k => Wc2 (ix2 k (0 : Fin 1))) (Bc2 (ix2 (0 : Fin 1) (0 : Fin 1)))

/-! ## The printed index maps, decided once over the grid -/

theorem col0_0 : ∀ t : Fin cfg0.N, win0_0.index t (1 : Fin 2) = 0 := (by decide +kernel : ∀ t : Fin grid0.N, _)
theorem col0_1 : ∀ t : Fin cfg0.N, win0_1.index t (1 : Fin 2) = 0 := (by decide +kernel : ∀ t : Fin grid0.N, _)
theorem col0_2 : ∀ t : Fin cfg0.N, win0_2.index t (1 : Fin 2) = 0 := (by decide +kernel : ∀ t : Fin grid0.N, _)
theorem col0_11 : ∀ t : Fin cfg0.N, win0_11.index t (1 : Fin 2) = 0 := (by decide +kernel : ∀ t : Fin grid0.N, _)
theorem col0_12 : ∀ t : Fin cfg0.N, win0_12.index t (1 : Fin 2) = 0 := (by decide +kernel : ∀ t : Fin grid0.N, _)
theorem zero0_3 : ∀ t : Fin cfg0.N, win0_3.index t (0 : Fin 2) = 0 ∧ win0_3.index t (1 : Fin 2) = 0 := (by decide +kernel : ∀ t : Fin grid0.N, _)
theorem zero0_4 : ∀ t : Fin cfg0.N, win0_4.index t (0 : Fin 2) = 0 ∧ win0_4.index t (1 : Fin 2) = 0 := (by decide +kernel : ∀ t : Fin grid0.N, _)
theorem zero0_5 : ∀ t : Fin cfg0.N, win0_5.index t (0 : Fin 2) = 0 ∧ win0_5.index t (1 : Fin 2) = 0 := (by decide +kernel : ∀ t : Fin grid0.N, _)
theorem zero0_6 : ∀ t : Fin cfg0.N, win0_6.index t (0 : Fin 2) = 0 ∧ win0_6.index t (1 : Fin 2) = 0 := (by decide +kernel : ∀ t : Fin grid0.N, _)
theorem zero0_7 : ∀ t : Fin cfg0.N, win0_7.index t (0 : Fin 2) = 0 ∧ win0_7.index t (1 : Fin 2) = 0 := (by decide +kernel : ∀ t : Fin grid0.N, _)
theorem zero0_8 : ∀ t : Fin cfg0.N, win0_8.index t (0 : Fin 2) = 0 ∧ win0_8.index t (1 : Fin 2) = 0 := (by decide +kernel : ∀ t : Fin grid0.N, _)
theorem zero0_9 : ∀ t : Fin cfg0.N, win0_9.index t (0 : Fin 2) = 0 ∧ win0_9.index t (1 : Fin 2) = 0 := (by decide +kernel : ∀ t : Fin grid0.N, _)
theorem zero0_10 : ∀ t : Fin cfg0.N, win0_10.index t (0 : Fin 2) = 0 ∧ win0_10.index t (1 : Fin 2) = 0 := (by decide +kernel : ∀ t : Fin grid0.N, _)

/-- The three row-blocked inputs and the second output move with the first output's row band. -/
theorem rows0 : ∀ t : Fin cfg0.N, win0_0.index t (0 : Fin 2) = win0_11.index t (0 : Fin 2)
    ∧ win0_1.index t (0 : Fin 2) = win0_11.index t (0 : Fin 2) ∧ win0_2.index t (0 : Fin 2) = win0_11.index t (0 : Fin 2)
    ∧ win0_12.index t (0 : Fin 2) = win0_11.index t (0 : Fin 2) ∧ win0_11.index t (0 : Fin 2) < 100 :=
  (by decide +kernel : ∀ t : Fin grid0.N, _)

/-! ## A loaded rectangle of a block is the array at the matching coordinates -/

theorem rd0_0 (c : Dev nD) (t : Fin cfg0.N) (p : Fin 4000) (j : Fin 128) (r : Fin 400000)
    (hr : r.val = win0_0.index t (0 : Fin 2) * 4000 + p.val) :
    View.ld (iblk0 V c 0 t) r0_0 (ix2 p j) = V c main_v11 (ix2 r j) := by
  show V c main_v11 (((cfg0.win 0).blk t).view.emb (r0_0.emb (ix2 p j))) = _
  refine congrArg _ (funext fun a => Fin.ext ?_)
  have e1 : win0_0.index t (1 : Fin 2) = 0 := col0_0 t
  match a with
  | ⟨0, _⟩ =>
    show win0_0.index t (0 : Fin 2) * 4000 + 1 * (0 + 1 * p.val) = r.val
    omega
  | ⟨1, _⟩ =>
    show win0_0.index t (1 : Fin 2) * 128 + 1 * (0 + 1 * j.val) = j.val
    omega

theorem rd0_1 (c : Dev nD) (t : Fin cfg0.N) (p : Fin 4000) (j : Fin 128) (r : Fin 400000)
    (hr : r.val = win0_1.index t (0 : Fin 2) * 4000 + p.val) :
    View.ld (iblk0 V c 1 t) r0_0 (ix2 p j) = V c main_v18 (ix2 r j) := by
  show V c main_v18 (((cfg0.win 1).blk t).view.emb (r0_0.emb (ix2 p j))) = _
  refine congrArg _ (funext fun a => Fin.ext ?_)
  have e1 : win0_1.index t (1 : Fin 2) = 0 := col0_1 t
  match a with
  | ⟨0, _⟩ =>
    show win0_1.index t (0 : Fin 2) * 4000 + 1 * (0 + 1 * p.val) = r.val
    omega
  | ⟨1, _⟩ =>
    show win0_1.index t (1 : Fin 2) * 128 + 1 * (0 + 1 * j.val) = j.val
    omega

theorem rd0_2 (c : Dev nD) (t : Fin cfg0.N) (p : Fin 4000) (j : Fin 64) (r : Fin 400000)
    (hr : r.val = win0_2.index t (0 : Fin 2) * 4000 + p.val) :
    View.ld (iblk0 V c 2 t) r0_1 (ix2 p j) = V c main_v19 (ix2 r j) := by
  show V c main_v19 (((cfg0.win 2).blk t).view.emb (r0_1.emb (ix2 p j))) = _
  refine congrArg _ (funext fun a => Fin.ext ?_)
  have e1 : win0_2.index t (1 : Fin 2) = 0 := col0_2 t
  match a with
  | ⟨0, _⟩ =>
    show win0_2.index t (0 : Fin 2) * 4000 + 1 * (0 + 1 * p.val) = r.val
    omega
  | ⟨1, _⟩ =>
    show win0_2.index t (1 : Fin 2) * 64 + 1 * (0 + 1 * j.val) = j.val
    omega

theorem rd0_3a (c : Dev nD) (t : Fin cfg0.N) (j : Fin 128) (k : Fin 128) :
    View.ld (iblk0 V c 3 t) r0_2 (ix2 j k) = V c main_v20 (ix2 (⟨j.val, by omega⟩ : Fin 320) k) := by
  show V c main_v20 (((cfg0.win 3).blk t).view.emb (r0_2.emb (ix2 j k))) = _
  refine congrArg _ (funext fun a => Fin.ext ?_)
  obtain ⟨z0, z1⟩ := zero0_3 t
  match a with
  | ⟨0, _⟩ =>
    show win0_3.index t (0 : Fin 2) * 320 + 1 * (0 + 1 * j.val) = j.val
    omega
  | ⟨1, _⟩ =>
    show win0_3.index t (1 : Fin 2) * 128 + 1 * (0 + 1 * k.val) = k.val
    omega

theorem rd0_3b (c : Dev nD) (t : Fin cfg0.N) (j : Fin 128) (k : Fin 128) :
    View.ld (iblk0 V c 3 t) r0_3 (ix2 j k) = V c main_v20 (ix2 (⟨128 + j.val, by omega⟩ : Fin 320) k) := by
  show V c main_v20 (((cfg0.win 3).blk t).view.emb (r0_3.emb (ix2 j k))) = _
  refine congrArg _ (funext fun a => Fin.ext ?_)
  obtain ⟨z0, z1⟩ := zero0_3 t
  match a with
  | ⟨0, _⟩ =>
    show win0_3.index t (0 : Fin 2) * 320 + 1 * (128 + 1 * j.val) = 128 + j.val
    omega
  | ⟨1, _⟩ =>
    show win0_3.index t (1 : Fin 2) * 128 + 1 * (0 + 1 * k.val) = k.val
    omega

theorem rd0_3c (c : Dev nD) (t : Fin cfg0.N) (j : Fin 64) (k : Fin 128) :
    View.ld (iblk0 V c 3 t) r0_4 (ix2 j k) = V c main_v20 (ix2 (⟨256 + j.val, by omega⟩ : Fin 320) k) := by
  show V c main_v20 (((cfg0.win 3).blk t).view.emb (r0_4.emb (ix2 j k))) = _
  refine congrArg _ (funext fun a => Fin.ext ?_)
  obtain ⟨z0, z1⟩ := zero0_3 t
  match a with
  | ⟨0, _⟩ =>
    show win0_3.index t (0 : Fin 2) * 320 + 1 * (256 + 1 * j.val) = 256 + j.val
    omega
  | ⟨1, _⟩ =>
    show win0_3.index t (1 : Fin 2) * 128 + 1 * (0 + 1 * k.val) = k.val
    omega

theorem rd0_4 (c : Dev nD) (t : Fin cfg0.N) (y : S1x128.Idx) :
    View.ld (iblk0 V c 4 t) r0_5 y = V c main_v26 y := by
  show V c main_v26 (((cfg0.win 4).blk t).view.emb (r0_5.emb y)) = _
  refine congrArg _ (funext fun a => Fin.ext ?_)
  obtain ⟨z0, z1⟩ := zero0_4 t
  match a with
  | ⟨0, _⟩ =>
    show win0_4.index t (0 : Fin 2) * 1 + 1 * (0 + 1 * (y 0).val) = (y 0).val
    omega
  | ⟨1, _⟩ =>
    show win0_4.index t (1 : Fin 2) * 128 + 1 * (0 + 1 * (y 1).val) = (y 1).val
    omega

theorem rd0_5 (c : Dev nD) (t : Fin cfg0.N) (y : S128x128.Idx) :
    View.ld (iblk0 V c 5 t) r0_6 y = V c main_v21 y := by
  show V c main_v21 (((cfg0.win 5).blk t).view.emb (r0_6.emb y)) = _
  refine congrArg _ (funext fun a => Fin.ext ?_)
  obtain ⟨z0, z1⟩ := zero0_5 t
  match a with
  | ⟨0, _⟩ =>
    show win0_5.index t (0 : Fin 2) * 128 + 1 * (0 + 1 * (y 0).val) = (y 0).val
    omega
  | ⟨1, _⟩ =>
    show win0_5.index t (1 : Fin 2) * 128 + 1 * (0 + 1 * (y 1).val) = (y 1).val
    omega

theorem rd0_6 (c : Dev nD) (t : Fin cfg0.N) (y : S1x128.Idx) :
    View.ld (iblk0 V c 6 t) r0_5 y = V c main_v27 y := by
  show V c main_v27 (((cfg0.win 6).blk t).view.emb (r0_5.emb y)) = _
  refine congrArg _ (funext fun a => Fin.ext ?_)
  obtain ⟨z0, z1⟩ := zero0_6 t
  match a with
  | ⟨0, _⟩ =>
    show win0_6.index t (0 : Fin 2) * 1 + 1 * (0 + 1 * (y 0).val) = (y 0).val
    omega
  | ⟨1, _⟩ =>
    show win0_6.index t (1 : Fin 2) * 128 + 1 * (0 + 1 * (y 1).val) = (y 1).val
    omega

theorem rd0_7 (c : Dev nD) (t : Fin cfg0.N) (y : S128x64.Idx) :
    View.ld (iblk0 V c 7 t) r0_7 y = V c main_v22 y := by
  show V c main_v22 (((cfg0.win 7).blk t).view.emb (r0_7.emb y)) = _
  refine congrArg _ (funext fun a => Fin.ext ?_)
  obtain ⟨z0, z1⟩ := zero0_7 t
  match a with
  | ⟨0, _⟩ =>
    show win0_7.index t (0 : Fin 2) * 128 + 1 * (0 + 1 * (y 0).val) = (y 0).val
    omega
  | ⟨1, _⟩ =>
    show win0_7.index t (1 : Fin 2) * 64 + 1 * (0 + 1 * (y 1).val) = (y 1).val
    omega

theorem rd0_8 (c : Dev nD) (t : Fin cfg0.N) (y : S1x64.Idx) :
    View.ld (iblk0 V c 8 t) r0_8 y = V c main_v30 y := by
  show V c main_v30 (((cfg0.win 8).blk t).view.emb (r0_8.emb y)) = _
  refine congrArg _ (funext fun a => Fin.ext ?_)
  obtain ⟨z0, z1⟩ := zero0_8 t
  match a with
  | ⟨0, _⟩ =>
    show win0_8.index t (0 : Fin 2) * 1 + 1 * (0 + 1 * (y 0).val) = (y 0).val
    omega
  | ⟨1, _⟩ =>
    show win0_8.index t (1 : Fin 2) * 64 + 1 * (0 + 1 * (y 1).val) = (y 1).val
    omega

theorem rd0_9 (c : Dev nD) (t : Fin cfg0.N) (y : S64x1.Idx) :
    View.ld (iblk0 V c 9 t) r0_9 y = V c main_v23 y := by
  show V c main_v23 (((cfg0.win 9).blk t).view.emb (r0_9.emb y)) = _
  refine congrArg _ (funext fun a => Fin.ext ?_)
  obtain ⟨z0, z1⟩ := zero0_9 t
  match a with
  | ⟨0, _⟩ =>
    show win0_9.index t (0 : Fin 2) * 64 + 1 * (0 + 1 * (y 0).val) = (y 0).val
    omega
  | ⟨1, _⟩ =>
    show win0_9.index t (1 : Fin 2) * 1 + 1 * (0 + 1 * (y 1).val) = (y 1).val
    omega

theorem rd0_10 (c : Dev nD) (t : Fin cfg0.N) (y : S1x1.Idx) :
    View.ld (iblk0 V c 10 t) r0_10 y = V c main_v31 y := by
  show V c main_v31 (((cfg0.win 10).blk t).view.emb (r0_10.emb y)) = _
  refine congrArg _ (funext fun a => Fin.ext ?_)
  obtain ⟨z0, z1⟩ := zero0_10 t
  match a with
  | ⟨0, _⟩ =>
    show win0_10.index t (0 : Fin 2) * 1 + 1 * (0 + 1 * (y 0).val) = (y 0).val
    omega
  | ⟨1, _⟩ =>
    show win0_10.index t (1 : Fin 2) * 1 + 1 * (0 + 1 * (y 1).val) = (y 1).val
    omega

/-! ## What one point computes is its rows of the whole-array functions -/

/-- The body's first stored value at (p, q), at point `t`, is the message array at (r, q) for the row `r = 4000·t + p`. -/
theorem msg_block (c : Dev nD) (t : Fin cfg0.N) (p : Fin 4000) (q : Fin 128) (r : Fin 400000)
    (hr : r.val = win0_11.index t (0 : Fin 2) * 4000 + p.val) :
    k0_pay2 (F := Ideal) (View.ld (iblk0 V c 0 t) r0_0) (View.ld (iblk0 V c 1 t) r0_0) (View.ld (iblk0 V c 2 t) r0_1)
        (View.ld (iblk0 V c 3 t) r0_2) (View.ld (iblk0 V c 3 t) r0_3) (View.ld (iblk0 V c 3 t) r0_4)
        (View.ld (iblk0 V c 4 t) r0_5) (View.ld (iblk0 V c 5 t) r0_6) (View.ld (iblk0 V c 6 t) r0_5) (ix2 p q)
      = msgArr (V c main_v11) (V c main_v18) (V c main_v19) (V c main_v20) (V c main_v26) (V c main_v21) (V c main_v27)
          (ix2 r q) := by
  refine (Cert.KernelIdeal.Blocks.msg_apply _ _ _ _ _ _ _ _ _ p q).trans ?_
  obtain ⟨e0, e1, e2, e3, e4⟩ := rows0 t
  have h0 : (fun j => View.ld (iblk0 V c 0 t) r0_0 (ix2 p j)) = fun j => V c main_v11 (ix2 r j) :=
    funext fun j => rd0_0 V c t p j r (by omega)
  have h1 : (fun j => View.ld (iblk0 V c 1 t) r0_0 (ix2 p j)) = fun j => V c main_v18 (ix2 r j) :=
    funext fun j => rd0_1 V c t p j r (by omega)
  have h2 : (fun j => View.ld (iblk0 V c 2 t) r0_1 (ix2 p j)) = fun j => V c main_v19 (ix2 r j) :=
    funext fun j => rd0_2 V c t p j r (by omega)
  have h3a : (fun j k => View.ld (iblk0 V c 3 t) r0_2 (ix2 j k))
      = fun (j : Fin 128) (k : Fin 128) => V c main_v20 (ix2 (⟨j.val, by omega⟩ : Fin 320) k) :=
    funext fun j => funext fun k => rd0_3a V c t j k
  have h3b : (fun j k => View.ld (iblk0 V c 3 t) r0_3 (ix2 j k))
      = fun (j : Fin 128) (k : Fin 128) => V c main_v20 (ix2 (⟨128 + j.val, by omega⟩ : Fin 320) k) :=
    funext fun j => funext fun k => rd0_3b V c t j k
  have h3c : (fun j k => View.ld (iblk0 V c 3 t) r0_4 (ix2 j k))
      = fun (j : Fin 64) (k : Fin 128) => V c main_v20 (ix2 (⟨256 + j.val, by omega⟩ : Fin 320) k) :=
    funext fun j => funext fun k => rd0_3c V c t j k
  have h4 : (fun k => View.ld (iblk0 V c 4 t) r0_5 (ix2 (0 : Fin 1) k)) = fun (k : Fin 128) => V c main_v26 (ix2 (0 : Fin 1) k) :=
    funext fun k => rd0_4 V c t _
  have h5 : (fun k q => View.ld (iblk0 V c 5 t) r0_6 (ix2 k q)) = fun (k q : Fin 128) => V c main_v21 (ix2 k q) :=
    funext fun k => funext fun q => rd0_5 V c t _
  have h6 : (fun q => View.ld (iblk0 V c 6 t) r0_5 (ix2 (0 : Fin 1) q)) = fun (q : Fin 128) => V c main_v27 (ix2 (0 : Fin 1) q) :=
    funext fun q => rd0_6 V c t _
  rw [h0, h1, h2, h3a, h3b, h3c, h4, h5, h6]
  rfl

/-- WHAT POINT `t` WRITES BACK to the message array is its rows of `msgArr`. -/
theorem flushed0_11 (c : Dev nD) (t : Fin cfg0.N) :
    (dat0 V c).flushed 11 t = ((cfg0.win 11).blk t).view.read (Elt Ideal)
      (msgArr (V c main_v11) (V c main_v18) (V c main_v19) (V c main_v20) (V c main_v26) (V c main_v21) (V c main_v27)) := by
  show (cfg0.win 11).cut (grid0.coords t) ((dat0 V c).after 11 t) = _
  rw [after0_11]
  unfold out0_11
  rw [View.canon_unit_zero hz]
  funext j
  obtain ⟨p, q, rfl⟩ : ∃ (p : Fin 4000) (q : Fin 128), j = ix2 p q := ⟨j 0, j 1, eq_ix2 j⟩
  have e1 : win0_11.index t (1 : Fin 2) = 0 := col0_11 t
  have hI : (((cfg0.win 11).blk t).view.emb (ix2 p q) : S400000x128.Idx)
      = ix2 ((((cfg0.win 11).blk t).view.emb (ix2 p q) : S400000x128.Idx) 0) q := by
    funext a
    match a with
    | ⟨0, _⟩ => rfl
    | ⟨1, _⟩ =>
      refine Fin.ext ?_
      show win0_11.index t (1 : Fin 2) * 128 + 1 * q.val = q.val
      omega
  refine (msg_block V c t p q ((((cfg0.win 11).blk t).view.emb (ix2 p q) : S400000x128.Idx) 0) (by
    show win0_11.index t (0 : Fin 2) * 4000 + 1 * p.val = _
    omega)).trans ?_
  exact congrArg (msgArr (V c main_v11) (V c main_v18) (V c main_v19) (V c main_v20) (V c main_v26) (V c main_v21)
    (V c main_v27)) hI.symm

/-- WHAT POINT `t` WRITES BACK to the coordinate-weight array is its rows of `cwArr` of the message array. -/
theorem flushed0_12 (c : Dev nD) (t : Fin cfg0.N) :
    (dat0 V c).flushed 12 t = ((cfg0.win 12).blk t).view.read (Elt Ideal)
      (cwArr (msgArr (V c main_v11) (V c main_v18) (V c main_v19) (V c main_v20) (V c main_v26) (V c main_v21) (V c main_v27))
        (V c main_v22) (V c main_v30) (V c main_v23) (V c main_v31)) := by
  show (cfg0.win 12).cut (grid0.coords t) ((dat0 V c).after 12 t) = _
  rw [after0_12]
  unfold out0_12
  rw [View.canon_unit_zero hz]
  funext j
  obtain ⟨p, z, rfl⟩ : ∃ (p : Fin 4000) (z : Fin 1), j = ix2 p z := ⟨j 0, j 1, eq_ix2 j⟩
  refine (Cert.KernelIdeal.Blocks.coordW_apply _ _ _ _ _ p z).trans ?_
  obtain ⟨e0, e1, e2, e3, e4⟩ := rows0 t
  have hr : ((((cfg0.win 12).blk t).view.emb (ix2 p z) : S400000x1.Idx) 0).val
      = win0_11.index t (0 : Fin 2) * 4000 + p.val := by
    show win0_12.index t (0 : Fin 2) * 4000 + 1 * p.val = _
    omega
  show _ = Cert.RowSpec.coordW
      (fun j => msgArr (V c main_v11) (V c main_v18) (V c main_v19) (V c main_v20) (V c main_v26) (V c main_v21)
        (V c main_v27) (ix2 ((((cfg0.win 12).blk t).view.emb (ix2 p z) : S400000x1.Idx) 0) j))
      (fun j k => V c main_v22 (ix2 j k)) (fun k => V c main_v30 (ix2 (0 : Fin 1) k))
      (fun k => V c main_v23 (ix2 k (0 : Fin 1))) (V c main_v31 (ix2 (0 : Fin 1) (0 : Fin 1)))
  refine congr (congr (congr (congr (congrArg Cert.RowSpec.coordW ?_) ?_) ?_) ?_) ?_
  · exact funext fun j => msg_block V c t p j _ hr
  · exact funext fun j => funext fun k => rd0_7 V c t _
  · exact funext fun k => rd0_8 V c t _
  · exact funext fun k => rd0_9 V c t _
  · exact rd0_10 V c t _

/-! ## The blocks tile the arrays -/

/-- An index of the array is in point `t`'s block iff each coordinate is in the block's range on its axis. -/
theorem mem_blk0_11 (t : Fin cfg0.N) (i : S400000x128.Idx) :
    i ∈ ((cfg0.win 11).blk t).view.set ↔ ∀ a : Fin 2, win0_11.index t a * S4000x128.size a ≤ (i a).val
      ∧ (i a).val < win0_11.index t a * S4000x128.size a + S4000x128.size a := by
  show i ∈ ((View.whole main_v32_0).slice (win0_11.rect t)).set ↔ _
  rw [View.set_slice_whole, Rect.mem_set_unit]
  exact Iff.rfl

/-- Every band of 4000 rows is some grid point's block. -/
theorem onto0_11 : ∀ q0 : Fin 100, ∃ t : Fin cfg0.N, win0_11.index t = ![q0.val, 0] :=
  (by decide +kernel : ∀ q0 : Fin 100, ∃ t : Fin grid0.N, win0_11.index t = ![q0.val, 0])

/-- The blocks tile the array: row `r` lies in the block of the point whose band is `r / 4000`. -/
theorem cover0_11 (i : S400000x128.Idx) :
    ∃ t : Fin cfg0.N, (cfg0.win 11).flush t = true ∧ i ∈ ((cfg0.win 11).blk t).view.set := by
  have hi0 : (i 0).val < 400000 := (i 0).isLt
  have hi1 : (i 1).val < 128 := (i 1).isLt
  obtain ⟨t, ht⟩ := onto0_11 ⟨(i 0).val / 4000, by omega⟩
  have q0 : win0_11.index t (0 : Fin 2) = (i 0).val / 4000 := congrFun ht 0
  have q1 : win0_11.index t (1 : Fin 2) = 0 := congrFun ht 1
  refine ⟨t, flush0_11 t, ?_⟩
  rw [mem_blk0_11]
  intro a
  match a with
  | ⟨0, _⟩ =>
    show win0_11.index t (0 : Fin 2) * 4000 ≤ (i 0).val ∧ (i 0).val < win0_11.index t (0 : Fin 2) * 4000 + 4000
    omega
  | ⟨1, _⟩ =>
    show win0_11.index t (1 : Fin 2) * 128 ≤ (i 1).val ∧ (i 1).val < win0_11.index t (1 : Fin 2) * 128 + 128
    omega

/-- An index of the array is in point `t`'s block iff each coordinate is in the block's range on its axis. -/
theorem mem_blk0_12 (t : Fin cfg0.N) (i : S400000x1.Idx) :
    i ∈ ((cfg0.win 12).blk t).view.set ↔ ∀ a : Fin 2, win0_12.index t a * S4000x1.size a ≤ (i a).val
      ∧ (i a).val < win0_12.index t a * S4000x1.size a + S4000x1.size a := by
  show i ∈ ((View.whole main_v32_1).slice (win0_12.rect t)).set ↔ _
  rw [View.set_slice_whole, Rect.mem_set_unit]
  exact Iff.rfl

/-- Every band of 4000 rows is some grid point's block. -/
theorem onto0_12 : ∀ q0 : Fin 100, ∃ t : Fin cfg0.N, win0_12.index t = ![q0.val, 0] :=
  (by decide +kernel : ∀ q0 : Fin 100, ∃ t : Fin grid0.N, win0_12.index t = ![q0.val, 0])

/-- The blocks tile the array: row `r` lies in the block of the point whose band is `r / 4000`. -/
theorem cover0_12 (i : S400000x1.Idx) :
    ∃ t : Fin cfg0.N, (cfg0.win 12).flush t = true ∧ i ∈ ((cfg0.win 12).blk t).view.set := by
  have hi0 : (i 0).val < 400000 := (i 0).isLt
  have hi1 : (i 1).val < 1 := (i 1).isLt
  obtain ⟨t, ht⟩ := onto0_12 ⟨(i 0).val / 4000, by omega⟩
  have q0 : win0_12.index t (0 : Fin 2) = (i 0).val / 4000 := congrFun ht 0
  have q1 : win0_12.index t (1 : Fin 2) = 0 := congrFun ht 1
  refine ⟨t, flush0_12 t, ?_⟩
  rw [mem_blk0_12]
  intro a
  match a with
  | ⟨0, _⟩ =>
    show win0_12.index t (0 : Fin 2) * 4000 ≤ (i 0).val ∧ (i 0).val < win0_12.index t (0 : Fin 2) * 4000 + 4000
    omega
  | ⟨1, _⟩ =>
    show win0_12.index t (1 : Fin 2) * 1 ≤ (i 1).val ∧ (i 1).val < win0_12.index t (1 : Fin 2) * 1 + 1
    omega

/-! ## The arrays after the grid -/

/-- After the edge kernel's grid the message array holds `msgArr` of the entry contents. -/
theorem final0_11 (c : Dev nD) : (dat0 V c).arrAt 11 cfg0.N
    = msgArr (V c main_v11) (V c main_v18) (V c main_v19) (V c main_v20) (V c main_v26) (V c main_v21) (V c main_v27) :=
  (dat0 V c).arrAt_eq_of_cover 11 _ (fun t _ => flushed0_11 V c t) cover0_11

/-- After the edge kernel's grid the coordinate-weight array holds `cwArr` of the message array. -/
theorem final0_12 (c : Dev nD) : (dat0 V c).arrAt 12 cfg0.N
    = cwArr (msgArr (V c main_v11) (V c main_v18) (V c main_v19) (V c main_v20) (V c main_v26) (V c main_v21) (V c main_v27))
        (V c main_v22) (V c main_v30) (V c main_v23) (V c main_v31) :=
  (dat0 V c).arrAt_eq_of_cover 12 _ (fun t _ => flushed0_12 V c t) cover0_12

end Cert.KernelIdeal.Arrays

end
-- ==== Proof.NodeArrays.lean ====
/-
  The node kernel's grid as a whole array.

  The grid has 10 points; point t works on nodes 5000·t … 5000·t + 4999: its blocks of the node features and of the
  aggregated messages are those rows, the weight and bias blocks are the whole arrays (the first matrix is read in its
  two row bands 0–127 and 128–255), and it writes back those rows of the result. Each point writes back exactly its rows
  of the one whole-array function `nodeArr`, and the 10 row bands tile the 50000 rows; so after the grid the result array
  is `nodeArr` of the arrays the region was entered with, for arbitrary entry contents `V`.
-/
import proofs.«168592_j7275674599805_2_alg».proof.Proof.Gen.KernelIdeal.Frame
import proofs.«168592_j7275674599805_2_alg».proof.Proof.Blocks
import Idealize.ShloMosaic.Lib.Pipeline.Value
import Idealize.ShloMosaic.Lib.ValueIdx

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-- The updated features of all nodes as one array: entry (n, c) from row `n` of the features `NF` and of the
    aggregated messages `AG`. -/
def nodeArr (NF AG : S50000x128.Idx → EReal) (W1 : S256x128.Idx → EReal) (B1 : S1x128.Idx → EReal)
    (W2 : S128x128.Idx → EReal) (B2 : S1x128.Idx → EReal) : S50000x128.Idx → EReal :=
  fun i => Cert.RowSpec.nodeOut (fun j => NF (ix2 (i 0) j)) (fun j => AG (ix2 (i 0) j))
      (fun j k => W1 (ix2 (⟨j.val, by omega⟩ : Fin 256) k)) (fun j k => W1 (ix2 (⟨128 + j.val, by omega⟩ : Fin 256) k))
      (fun k => B1 (ix2 (0 : Fin 1) k)) (fun k c => W2 (ix2 k c)) (fun c => B2 (ix2 (0 : Fin 1) c)) (i 1)

/-! ## The printed index maps, decided once over the grid -/

theorem col1_0 : ∀ t : Fin cfg1.N, win1_0.index t (1 : Fin 2) = 0 := (by decide +kernel : ∀ t : Fin grid1.N, _)
theorem col1_1 : ∀ t : Fin cfg1.N, win1_1.index t (1 : Fin 2) = 0 := (by decide +kernel : ∀ t : Fin grid1.N, _)
theorem col1_6 : ∀ t : Fin cfg1.N, win1_6.index t (1 : Fin 2) = 0 := (by decide +kernel : ∀ t : Fin grid1.N, _)
theorem zero1_2 : ∀ t : Fin cfg1.N, win1_2.index t (0 : Fin 2) = 0 ∧ win1_2.index t (1 : Fin 2) = 0 := (by decide +kernel : ∀ t : Fin grid1.N, _)
theorem zero1_3 : ∀ t : Fin cfg1.N, win1_3.index t (0 : Fin 2) = 0 ∧ win1_3.index t (1 : Fin 2) = 0 := (by decide +kernel : ∀ t : Fin grid1.N, _)
theorem zero1_4 : ∀ t : Fin cfg1.N, win1_4.index t (0 : Fin 2) = 0 ∧ win1_4.index t (1 : Fin 2) = 0 := (by decide +kernel : ∀ t : Fin grid1.N, _)
theorem zero1_5 : ∀ t : Fin cfg1.N, win1_5.index t (0 : Fin 2) = 0 ∧ win1_5.index t (1 : Fin 2) = 0 := (by decide +kernel : ∀ t : Fin grid1.N, _)

/-- The two row-blocked inputs move with the output's row band. -/
theorem rows1 : ∀ t : Fin cfg1.N, win1_0.index t (0 : Fin 2) = win1_6.index t (0 : Fin 2)
    ∧ win1_1.index t (0 : Fin 2) = win1_6.index t (0 : Fin 2) ∧ win1_6.index t (0 : Fin 2) < 10 :=
  (by decide +kernel : ∀ t : Fin grid1.N, _)

/-! ## A loaded rectangle of a block is the array at the matching coordinates -/

theorem rd1_0 (c : Dev nD) (t : Fin cfg1.N) (p : Fin 5000) (j : Fin 128) (r : Fin 50000)
    (hr : r.val = win1_0.index t (0 : Fin 2) * 5000 + p.val) :
    View.ld (iblk1 V c 0 t) r1_0 (ix2 p j) = V c main_arg0 (ix2 r j) := by
  show V c main_arg0 (((cfg1.win 0).blk t).view.emb (r1_0.emb (ix2 p j))) = _
  refine congrArg _ (funext fun a => Fin.ext ?_)
  have e1 : win1_0.index t (1 : Fin 2) = 0 := col1_0 t
  match a with
  | ⟨0, _⟩ =>
    show win1_0.index t (0 : Fin 2) * 5000 + 1 * (0 + 1 * p.val) = r.val
    omega
  | ⟨1, _⟩ =>
    show win1_0.index t (1 : Fin 2) * 128 + 1 * (0 + 1 * j.val) = j.val
    omega

theorem rd1_1 (c : Dev nD) (t : Fin cfg1.N) (p : Fin 5000) (j : Fin 128) (r : Fin 50000)
    (hr : r.val = win1_1.index t (0 : Fin 2) * 5000 + p.val) :
    View.ld (iblk1 V c 1 t) r1_0 (ix2 p j) = V c main_v35 (ix2 r j) := by
  show V c main_v35 (((cfg1.win 1).blk t).view.emb (r1_0.emb (ix2 p j))) = _
  refine congrArg _ (funext fun a => Fin.ext ?_)
  have e1 : win1_1.index t (1 : Fin 2) = 0 := col1_1 t
  match a with
  | ⟨0, _⟩ =>
    show win1_1.index t (0 : Fin 2) * 5000 + 1 * (0 + 1 * p.val) = r.val
    omega
  | ⟨1, _⟩ =>
    show win1_1.index t (1 : Fin 2) * 128 + 1 * (0 + 1 * j.val) = j.val
    omega

theorem rd1_2a (c : Dev nD) (t : Fin cfg1.N) (j : Fin 128) (k : Fin 128) :
    View.ld (iblk1 V c 2 t) r1_1 (ix2 j k) = V c main_v24 (ix2 (⟨j.val, by omega⟩ : Fin 256) k) := by
  show V c main_v24 (((cfg1.win 2).blk t).view.emb (r1_1.emb (ix2 j k))) = _
  refine congrArg _ (funext fun a => Fin.ext ?_)
  obtain ⟨z0, z1⟩ := zero1_2 t
  match a with
  | ⟨0, _⟩ =>
    show win1_2.index t (0 : Fin 2) * 256 + 1 * (0 + 1 * j.val) = j.val
    omega
  | ⟨1, _⟩ =>
    show win1_2.index t (1 : Fin 2) * 128 + 1 * (0 + 1 * k.val) = k.val
    omega

theorem rd1_2b (c : Dev nD) (t : Fin cfg1.N) (j : Fin 128) (k : Fin 128) :
    View.ld (iblk1 V c 2 t) r1_2 (ix2 j k) = V c main_v24 (ix2 (⟨128 + j.val, by omega⟩ : Fin 256) k) := by
  show V c main_v24 (((cfg1.win 2).blk t).view.emb (r1_2.emb (ix2 j k))) = _
  refine congrArg _ (funext fun a => Fin.ext ?_)
  obtain ⟨z0, z1⟩ := zero1_2 t
  match a with
  | ⟨0, _⟩ =>
    show win1_2.index t (0 : Fin 2) * 256 + 1 * (128 + 1 * j.val) = 128 + j.val
    omega
  | ⟨1, _⟩ =>
    show win1_2.index t (1 : Fin 2) * 128 + 1 * (0 + 1 * k.val) = k.val
    omega

theorem rd1_3 (c : Dev nD) (t : Fin cfg1.N) (y : S1x128.Idx) :
    View.ld (iblk1 V c 3 t) r1_3 y = V c main_v28 y := by
  show V c main_v28 (((cfg1.win 3).blk t).view.emb (r1_3.emb y)) = _
  refine congrArg _ (funext fun a => Fin.ext ?_)
  obtain ⟨z0, z1⟩ := zero1_3 t
  match a with
  | ⟨0, _⟩ =>
    show win1_3.index t (0 : Fin 2) * 1 + 1 * (0 + 1 * (y 0).val) = (y 0).val
    omega
  | ⟨1, _⟩ =>
    show win1_3.index t (1 : Fin 2) * 128 + 1 * (0 + 1 * (y 1).val) = (y 1).val
    omega

theorem rd1_4 (c : Dev nD) (t : Fin cfg1.N) (y : S128x128.Idx) :
    View.ld (iblk1 V c 4 t) r1_4 y = V c main_v25 y := by
  show V c main_v25 (((cfg1.win 4).blk t).view.emb (r1_4.emb y)) = _
  refine congrArg _ (funext fun a => Fin.ext ?_)
  obtain ⟨z0, z1⟩ := zero1_4 t
  match a with
  | ⟨0, _⟩ =>
    show win1_4.index t (0 : Fin 2) * 128 + 1 * (0 + 1 * (y 0).val) = (y 0).val
    omega
  | ⟨1, _⟩ =>
    show win1_4.index t (1 : Fin 2) * 128 + 1 * (0 + 1 * (y 1).val) = (y 1).val
    omega

theorem rd1_5 (c : Dev nD) (t : Fin cfg1.N) (y : S1x128.Idx) :
    View.ld (iblk1 V c 5 t) r1_3 y = V c main_v29 y := by
  show V c main_v29 (((cfg1.win 5).blk t).view.emb (r1_3.emb y)) = _
  refine congrArg _ (funext fun a => Fin.ext ?_)
  obtain ⟨z0, z1⟩ := zero1_5 t
  match a with
  | ⟨0, _⟩ =>
    show win1_5.index t (0 : Fin 2) * 1 + 1 * (0 + 1 * (y 0).val) = (y 0).val
    omega
  | ⟨1, _⟩ =>
    show win1_5.index t (1 : Fin 2) * 128 + 1 * (0 + 1 * (y 1).val) = (y 1).val
    omega

/-! ## What one point computes is its rows of the whole-array function -/

/-- WHAT POINT `t` WRITES BACK to the result array is its rows of `nodeArr`. -/
theorem flushed1_6 (c : Dev nD) (t : Fin cfg1.N) :
    (dat1 V c).flushed 6 t = ((cfg1.win 6).blk t).view.read (Elt Ideal)
      (nodeArr (V c main_arg0) (V c main_v35) (V c main_v24) (V c main_v28) (V c main_v25) (V c main_v29)) := by
  show (cfg1.win 6).cut (grid1.coords t) ((dat1 V c).after 6 t) = _
  rw [after1_6]
  unfold out1_6
  rw [View.canon_unit_zero hz1]
  funext j
  obtain ⟨p, q, rfl⟩ : ∃ (p : Fin 5000) (q : Fin 128), j = ix2 p q := ⟨j 0, j 1, eq_ix2 j⟩
  refine (Cert.KernelIdeal.Blocks.nodeOut_apply _ _ _ _ _ _ _ p q).trans ?_
  obtain ⟨e0, e1, e2⟩ := rows1 t
  have c6 : win1_6.index t (1 : Fin 2) = 0 := col1_6 t
  have hr : ((((cfg1.win 6).blk t).view.emb (ix2 p q) : S50000x128.Idx) 0).val
      = win1_6.index t (0 : Fin 2) * 5000 + p.val := by
    show win1_6.index t (0 : Fin 2) * 5000 + 1 * p.val = _
    omega
  have hq : (((cfg1.win 6).blk t).view.emb (ix2 p q) : S50000x128.Idx) 1 = q := by
    refine Fin.ext ?_
    show win1_6.index t (1 : Fin 2) * 128 + 1 * q.val = q.val
    omega
  have h0 : (fun j => View.ld (iblk1 V c 0 t) r1_0 (ix2 p j))
      = fun (j : Fin 128) => V c main_arg0 (ix2 ((((cfg1.win 6).blk t).view.emb (ix2 p q) : S50000x128.Idx) 0) j) :=
    funext fun j => rd1_0 V c t p j _ (by omega)
  have h1 : (fun j => View.ld (iblk1 V c 1 t) r1_0 (ix2 p j))
      = fun (j : Fin 128) => V c main_v35 (ix2 ((((cfg1.win 6).blk t).view.emb (ix2 p q) : S50000x128.Idx) 0) j) :=
    funext fun j => rd1_1 V c t p j _ (by omega)
  have h2a : (fun j k => View.ld (iblk1 V c 2 t) r1_1 (ix2 j k))
      = fun (j : Fin 128) (k : Fin 128) => V c main_v24 (ix2 (⟨j.val, by omega⟩ : Fin 256) k) :=
    funext fun j => funext fun k => rd1_2a V c t j k
  have h2b : (fun j k => View.ld (iblk1 V c 2 t) r1_2 (ix2 j k))
      = fun (j : Fin 128) (k : Fin 128) => V c main_v24 (ix2 (⟨128 + j.val, by omega⟩ : Fin 256) k) :=
    funext fun j => funext fun k => rd1_2b V c t j k
  have h3 : (fun k => View.ld (iblk1 V c 3 t) r1_3 (ix2 (0 : Fin 1) k)) = fun (k : Fin 128) => V c main_v28 (ix2 (0 : Fin 1) k) :=
    funext fun k => rd1_3 V c t _
  have h4 : (fun k q => View.ld (iblk1 V c 4 t) r1_4 (ix2 k q)) = fun (k q : Fin 128) => V c main_v25 (ix2 k q) :=
    funext fun k => funext fun q => rd1_4 V c t _
  have h5 : (fun q => View.ld (iblk1 V c 5 t) r1_3 (ix2 (0 : Fin 1) q)) = fun (q : Fin 128) => V c main_v29 (ix2 (0 : Fin 1) q) :=
    funext fun q => rd1_5 V c t _
  rw [h0, h1, h2a, h2b, h3, h4, h5]
  show _ = nodeArr (V c main_arg0) (V c main_v35) (V c main_v24) (V c main_v28) (V c main_v25) (V c main_v29)
    (((cfg1.win 6).blk t).view.emb (ix2 p q))
  unfold nodeArr
  rw [hq]

/-! ## The blocks tile the array -/

/-- An index of the array is in point `t`'s block iff each coordinate is in the block's range on its axis. -/
theorem mem_blk1_6 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v36).slice (win1_6.rect t)).set ↔ _
  rw [View.set_slice_whole, Rect.mem_set_unit]
  exact Iff.rfl

/-- Every band of 5000 rows is some grid point's block. -/
theorem onto1_6 : ∀ q0 : Fin 10, ∃ t : Fin cfg1.N, win1_6.index t = ![q0.val, 0] :=
  (by decide +kernel : ∀ q0 : Fin 10, ∃ t : Fin grid1.N, win1_6.index t = ![q0.val, 0])

/-- The blocks tile the array: row `r` lies in the block of the point whose band is `r / 5000`. -/
theorem cover1_6 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := onto1_6 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1_6]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

/-! ## The array after the grid -/

/-- After the node kernel's grid the result array holds `nodeArr` of the entry contents. -/
theorem final1_6 (c : Dev nD) : (dat1 V c).arrAt 6 cfg1.N
    = nodeArr (V c main_arg0) (V c main_v35) (V c main_v24) (V c main_v28) (V c main_v25) (V c main_v29) :=
  (dat1 V c).arrAt_eq_of_cover 6 _ (fun t _ => flushed1_6 V c t) cover1_6

end Cert.KernelIdeal.Arrays

end
-- ==== Proof.Values.lean ====
/-
  The idealized kernel program's buffers, boundary by boundary.

  @main's seven segments are: host operations (the edges' endpoints out of the index array, the two gathers of node
  features, the weights and biases re-laid), the edge kernel's grid, host operations (the scatter-add of the messages
  onto their destination nodes), the node kernel's grid, and three stretches of host operations (the coordinate
  update). `Gen.W0` … `Gen.W7` are the buffers' contents at the segment boundaries. This module reads, at each boundary,
  the buffers the next segment consumes, as functions of the launch memory `m`:

  * after the first host stretch: the endpoint rows, the gathered source and destination features (the same gather the
    reference program makes: they are that program's stages at this memory, definitionally, a rounding to a narrower
    format being the identity over the extended reals), the weights (unchanged) and the biases as [1, n] rows;
  * after the edge kernel: the message array `msgArr` and the coordinate-weight array `cwArr` of those;
  * after the second host stretch: the aggregated messages, the scatter-add of `msgArr` at the destination rows;
  * after the node kernel: the first result, `nodeArr` of the node features and the aggregated messages;
  * after the last three stretches: the first result untouched (the second result is read in `Proof/Tail.lean`).
-/
import proofs.«168592_j7275674599805_2_alg».proof.Proof.Gen.KernelIdeal.Frame
import proofs.«168592_j7275674599805_2_alg».proof.Proof.Gen.ReferenceIdeal.Read
import proofs.«168592_j7275674599805_2_alg».proof.Proof.RefRows
import proofs.«168592_j7275674599805_2_alg».proof.Proof.EdgeArrays
import proofs.«168592_j7275674599805_2_alg».proof.Proof.NodeArrays
import Idealize.ShloMosaic.Lib.StableHlo.Run
import Idealize.ShloMosaic.PureOps.Ideal
import Idealize.ShloMosaic.PureOps.Ideal.Laws

set_option maxRecDepth 16384

noncomputable section

namespace Cert.KernelIdeal.Values

open Idealize.ShloMosaic Idealize.ShloMosaic.TcCoe Idealize.SL.Sem Idealize.ShloMosaic.StableHlo
open Cert.KernelIdeal Cert.KernelIdeal.Gen Cert.KernelIdeal.Arrays

variable (m : (ℓ : Loc nD τ sig) → Buf (Elt Ideal) ℓ) (ρ : Dev nD → PrngReg) (c : Dev nD)

/-! ## After the first host stretch -/

theorem W1_v1 : W1 m ρ c (Proc.devRef .tc main_v1) = (Cert.ReferenceIdeal.Read.val_main_v1 (F := Ideal) (m ((c : Thread nD τ).loc main_arg3))) := by
  show StableHlo.after hostOps0 (W0 m ρ c) (Proc.devRef .tc main_v1) = _
  after_results_simp <;> rfl
theorem V1_v1 : V1 m ρ c main_v1 = (Cert.ReferenceIdeal.Read.val_main_v1 (F := Ideal) (m ((c : Thread nD τ).loc main_arg3))) := W1_v1 m ρ c
theorem W1_v3 : W1 m ρ c (Proc.devRef .tc main_v3) = (Cert.ReferenceIdeal.Read.val_main_v3 (F := Ideal) (m ((c : Thread nD τ).loc main_arg3))) := by
  show StableHlo.after hostOps0 (W0 m ρ c) (Proc.devRef .tc main_v3) = _
  after_results_simp <;> rfl
theorem V1_v3 : V1 m ρ c main_v3 = (Cert.ReferenceIdeal.Read.val_main_v3 (F := Ideal) (m ((c : Thread nD τ).loc main_arg3))) := W1_v3 m ρ c
theorem W1_v11 : W1 m ρ c (Proc.devRef .tc main_v11) = (Cert.ReferenceIdeal.Read.val_main_v10 (F := Ideal) (m ((c : Thread nD τ).loc main_arg0)) (m ((c : Thread nD τ).loc main_arg3))) := by
  show StableHlo.after hostOps0 (W0 m ρ c) (Proc.devRef .tc main_v11) = _
  after_results_simp <;> rfl
theorem V1_v11 : V1 m ρ c main_v11 = (Cert.ReferenceIdeal.Read.val_main_v10 (F := Ideal) (m ((c : Thread nD τ).loc main_arg0)) (m ((c : Thread nD τ).loc main_arg3))) := W1_v11 m ρ c
theorem W1_v18 : W1 m ρ c (Proc.devRef .tc main_v18) = (Cert.ReferenceIdeal.Read.val_main_v17 (F := Ideal) (m ((c : Thread nD τ).loc main_arg0)) (m ((c : Thread nD τ).loc main_arg3))) := by
  show StableHlo.after hostOps0 (W0 m ρ c) (Proc.devRef .tc main_v18) = _
  after_results_simp <;> rfl
theorem V1_v18 : V1 m ρ c main_v18 = (Cert.ReferenceIdeal.Read.val_main_v17 (F := Ideal) (m ((c : Thread nD τ).loc main_arg0)) (m ((c : Thread nD τ).loc main_arg3))) := W1_v18 m ρ c
theorem W1_v19 : W1 m ρ c (Proc.devRef .tc main_v19) = (m ((c : Thread nD τ).loc main_arg1)) := by
  show StableHlo.after hostOps0 (W0 m ρ c) (Proc.devRef .tc main_v19) = _
  after_results_simp <;> rfl
theorem V1_v19 : V1 m ρ c main_v19 = (m ((c : Thread nD τ).loc main_arg1)) := W1_v19 m ρ c
theorem W1_v20 : W1 m ρ c (Proc.devRef .tc main_v20) = (m ((c : Thread nD τ).loc main_arg4)) := by
  show StableHlo.after hostOps0 (W0 m ρ c) (Proc.devRef .tc main_v20) = _
  after_results_simp <;> rfl
theorem V1_v20 : V1 m ρ c main_v20 = (m ((c : Thread nD τ).loc main_arg4)) := W1_v20 m ρ c
theorem W1_v21 : W1 m ρ c (Proc.devRef .tc main_v21) = (m ((c : Thread nD τ).loc main_arg6)) := by
  show StableHlo.after hostOps0 (W0 m ρ c) (Proc.devRef .tc main_v21) = _
  after_results_simp <;> rfl
theorem V1_v21 : V1 m ρ c main_v21 = (m ((c : Thread nD τ).loc main_arg6)) := W1_v21 m ρ c
theorem W1_v22 : W1 m ρ c (Proc.devRef .tc main_v22) = (m ((c : Thread nD τ).loc main_arg12)) := by
  show StableHlo.after hostOps0 (W0 m ρ c) (Proc.devRef .tc main_v22) = _
  after_results_simp <;> rfl
theorem V1_v22 : V1 m ρ c main_v22 = (m ((c : Thread nD τ).loc main_arg12)) := W1_v22 m ρ c
theorem W1_v23 : W1 m ρ c (Proc.devRef .tc main_v23) = (m ((c : Thread nD τ).loc main_arg14)) := by
  show StableHlo.after hostOps0 (W0 m ρ c) (Proc.devRef .tc main_v23) = _
  after_results_simp <;> rfl
theorem V1_v23 : V1 m ρ c main_v23 = (m ((c : Thread nD τ).loc main_arg14)) := W1_v23 m ρ c
theorem W1_v24 : W1 m ρ c (Proc.devRef .tc main_v24) = (m ((c : Thread nD τ).loc main_arg8)) := by
  show StableHlo.after hostOps0 (W0 m ρ c) (Proc.devRef .tc main_v24) = _
  after_results_simp <;> rfl
theorem V1_v24 : V1 m ρ c main_v24 = (m ((c : Thread nD τ).loc main_arg8)) := W1_v24 m ρ c
theorem W1_v25 : W1 m ρ c (Proc.devRef .tc main_v25) = (m ((c : Thread nD τ).loc main_arg10)) := by
  show StableHlo.after hostOps0 (W0 m ρ c) (Proc.devRef .tc main_v25) = _
  after_results_simp <;> rfl
theorem V1_v25 : V1 m ρ c main_v25 = (m ((c : Thread nD τ).loc main_arg10)) := W1_v25 m ρ c
theorem W1_v26 : W1 m ρ c (Proc.devRef .tc main_v26) = (shapeCast S1x128 (m ((c : Thread nD τ).loc main_arg5)) shapeCasts_S128_S1x128) := by
  show StableHlo.after hostOps0 (W0 m ρ c) (Proc.devRef .tc main_v26) = _
  after_results_simp <;> rfl
theorem V1_v26 : V1 m ρ c main_v26 = (shapeCast S1x128 (m ((c : Thread nD τ).loc main_arg5)) shapeCasts_S128_S1x128) := W1_v26 m ρ c
theorem W1_v27 : W1 m ρ c (Proc.devRef .tc main_v27) = (shapeCast S1x128 (m ((c : Thread nD τ).loc main_arg7)) shapeCasts_S128_S1x128) := by
  show StableHlo.after hostOps0 (W0 m ρ c) (Proc.devRef .tc main_v27) = _
  after_results_simp <;> rfl
theorem V1_v27 : V1 m ρ c main_v27 = (shapeCast S1x128 (m ((c : Thread nD τ).loc main_arg7)) shapeCasts_S128_S1x128) := W1_v27 m ρ c
theorem W1_v28 : W1 m ρ c (Proc.devRef .tc main_v28) = (shapeCast S1x128 (m ((c : Thread nD τ).loc main_arg9)) shapeCasts_S128_S1x128) := by
  show StableHlo.after hostOps0 (W0 m ρ c) (Proc.devRef .tc main_v28) = _
  after_results_simp <;> rfl
theorem V1_v28 : V1 m ρ c main_v28 = (shapeCast S1x128 (m ((c : Thread nD τ).loc main_arg9)) shapeCasts_S128_S1x128) := W1_v28 m ρ c
theorem W1_v29 : W1 m ρ c (Proc.devRef .tc main_v29) = (shapeCast S1x128 (m ((c : Thread nD τ).loc main_arg11)) shapeCasts_S128_S1x128) := by
  show StableHlo.after hostOps0 (W0 m ρ c) (Proc.devRef .tc main_v29) = _
  after_results_simp <;> rfl
theorem V1_v29 : V1 m ρ c main_v29 = (shapeCast S1x128 (m ((c : Thread nD τ).loc main_arg11)) shapeCasts_S128_S1x128) := W1_v29 m ρ c
theorem W1_v30 : W1 m ρ c (Proc.devRef .tc main_v30) = (shapeCast S1x64 (m ((c : Thread nD τ).loc main_arg13)) shapeCasts_S64_S1x64) := by
  show StableHlo.after hostOps0 (W0 m ρ c) (Proc.devRef .tc main_v30) = _
  after_results_simp <;> rfl
theorem V1_v30 : V1 m ρ c main_v30 = (shapeCast S1x64 (m ((c : Thread nD τ).loc main_arg13)) shapeCasts_S64_S1x64) := W1_v30 m ρ c
theorem W1_v31 : W1 m ρ c (Proc.devRef .tc main_v31) = (shapeCast S1x1 (m ((c : Thread nD τ).loc main_arg15)) shapeCasts_S1_S1x1) := by
  show StableHlo.after hostOps0 (W0 m ρ c) (Proc.devRef .tc main_v31) = _
  after_results_simp <;> rfl
theorem V1_v31 : V1 m ρ c main_v31 = (shapeCast S1x1 (m ((c : Thread nD τ).loc main_arg15)) shapeCasts_S1_S1x1) := W1_v31 m ρ c
theorem W1_arg0 : W1 m ρ c (Proc.devRef .tc main_arg0) = (m ((c : Thread nD τ).loc main_arg0)) := by
  show StableHlo.after hostOps0 (W0 m ρ c) (Proc.devRef .tc main_arg0) = _
  after_results_simp <;> rfl
theorem V1_arg0 : V1 m ρ c main_arg0 = (m ((c : Thread nD τ).loc main_arg0)) := W1_arg0 m ρ c
theorem W1_arg2 : W1 m ρ c (Proc.devRef .tc main_arg2) = (m ((c : Thread nD τ).loc main_arg2)) := by
  show StableHlo.after hostOps0 (W0 m ρ c) (Proc.devRef .tc main_arg2) = _
  after_results_simp <;> rfl
theorem V1_arg2 : V1 m ρ c main_arg2 = (m ((c : Thread nD τ).loc main_arg2)) := W1_arg2 m ρ c

/-! ## After the edge kernel's grid -/

theorem W2_v1 : W2 m ρ c (Proc.devRef .tc main_v1) = (Cert.ReferenceIdeal.Read.val_main_v1 (F := Ideal) (m ((c : Thread nD τ).loc main_arg3))) :=
  (W2_of_ne m ρ c main_v1 (by decide)).trans (W1_v1 m ρ c)
theorem W2_v3 : W2 m ρ c (Proc.devRef .tc main_v3) = (Cert.ReferenceIdeal.Read.val_main_v3 (F := Ideal) (m ((c : Thread nD τ).loc main_arg3))) :=
  (W2_of_ne m ρ c main_v3 (by decide)).trans (W1_v3 m ρ c)
theorem W2_v24 : W2 m ρ c (Proc.devRef .tc main_v24) = (m ((c : Thread nD τ).loc main_arg8)) :=
  (W2_of_ne m ρ c main_v24 (by decide)).trans (W1_v24 m ρ c)
theorem W2_v25 : W2 m ρ c (Proc.devRef .tc main_v25) = (m ((c : Thread nD τ).loc main_arg10)) :=
  (W2_of_ne m ρ c main_v25 (by decide)).trans (W1_v25 m ρ c)
theorem W2_v28 : W2 m ρ c (Proc.devRef .tc main_v28) = (shapeCast S1x128 (m ((c : Thread nD τ).loc main_arg9)) shapeCasts_S128_S1x128) :=
  (W2_of_ne m ρ c main_v28 (by decide)).trans (W1_v28 m ρ c)
theorem W2_v29 : W2 m ρ c (Proc.devRef .tc main_v29) = (shapeCast S1x128 (m ((c : Thread nD τ).loc main_arg11)) shapeCasts_S128_S1x128) :=
  (W2_of_ne m ρ c main_v29 (by decide)).trans (W1_v29 m ρ c)
theorem W2_arg0 : W2 m ρ c (Proc.devRef .tc main_arg0) = (m ((c : Thread nD τ).loc main_arg0)) :=
  (W2_of_ne m ρ c main_arg0 (by decide)).trans (W1_arg0 m ρ c)
theorem W2_arg2 : W2 m ρ c (Proc.devRef .tc main_arg2) = (m ((c : Thread nD τ).loc main_arg2)) :=
  (W2_of_ne m ρ c main_arg2 (by decide)).trans (W1_arg2 m ρ c)

/-- The message array after the edge kernel's grid. -/
theorem W2_v32_0 : W2 m ρ c (Proc.devRef .tc main_v32_0) = (msgArr (Cert.ReferenceIdeal.Read.val_main_v10 (F := Ideal) (m ((c : Thread nD τ).loc main_arg0)) (m ((c : Thread nD τ).loc main_arg3))) (Cert.ReferenceIdeal.Read.val_main_v17 (F := Ideal) (m ((c : Thread nD τ).loc main_arg0)) (m ((c : Thread nD τ).loc main_arg3))) (m ((c : Thread nD τ).loc main_arg1)) (m ((c : Thread nD τ).loc main_arg4)) (shapeCast S1x128 (m ((c : Thread nD τ).loc main_arg5)) shapeCasts_S128_S1x128) (m ((c : Thread nD τ).loc main_arg6)) (shapeCast S1x128 (m ((c : Thread nD τ).loc main_arg7)) shapeCasts_S128_S1x128)) := by
  refine (W2_arr m ρ c 11).trans ?_
  rw [final0_11 (V1 m ρ) c, V1_v11, V1_v18, V1_v19, V1_v20, V1_v26, V1_v21, V1_v27]

/-- The coordinate-weight array after the edge kernel's grid. -/
theorem W2_v32_1 : W2 m ρ c (Proc.devRef .tc main_v32_1) = (cwArr (msgArr (Cert.ReferenceIdeal.Read.val_main_v10 (F := Ideal) (m ((c : Thread nD τ).loc main_arg0)) (m ((c : Thread nD τ).loc main_arg3))) (Cert.ReferenceIdeal.Read.val_main_v17 (F := Ideal) (m ((c : Thread nD τ).loc main_arg0)) (m ((c : Thread nD τ).loc main_arg3))) (m ((c : Thread nD τ).loc main_arg1)) (m ((c : Thread nD τ).loc main_arg4)) (shapeCast S1x128 (m ((c : Thread nD τ).loc main_arg5)) shapeCasts_S128_S1x128) (m ((c : Thread nD τ).loc main_arg6)) (shapeCast S1x128 (m ((c : Thread nD τ).loc main_arg7)) shapeCasts_S128_S1x128)) (m ((c : Thread nD τ).loc main_arg12)) (shapeCast S1x64 (m ((c : Thread nD τ).loc main_arg13)) shapeCasts_S64_S1x64) (m ((c : Thread nD τ).loc main_arg14)) (shapeCast S1x1 (m ((c : Thread nD τ).loc main_arg15)) shapeCasts_S1_S1x1)) := by
  refine (W2_arr m ρ c 12).trans ?_
  rw [final0_12 (V1 m ρ) c, V1_v11, V1_v18, V1_v19, V1_v20, V1_v26, V1_v21, V1_v27, V1_v22, V1_v30, V1_v23, V1_v31]

/-! ## After the second host stretch -/

theorem W3_v1 : W3 m ρ c (Proc.devRef .tc main_v1) = (Cert.ReferenceIdeal.Read.val_main_v1 (F := Ideal) (m ((c : Thread nD τ).loc main_arg3))) := by
  show StableHlo.after hostOps1 (W2 m ρ c) (Proc.devRef .tc main_v1) = _
  after_results_simp
  exact W2_v1 m ρ c
theorem V3_v1 : V3 m ρ c main_v1 = (Cert.ReferenceIdeal.Read.val_main_v1 (F := Ideal) (m ((c : Thread nD τ).loc main_arg3))) := W3_v1 m ρ c
theorem W3_v3 : W3 m ρ c (Proc.devRef .tc main_v3) = (Cert.ReferenceIdeal.Read.val_main_v3 (F := Ideal) (m ((c : Thread nD τ).loc main_arg3))) := by
  show StableHlo.after hostOps1 (W2 m ρ c) (Proc.devRef .tc main_v3) = _
  after_results_simp
  exact W2_v3 m ρ c
theorem V3_v3 : V3 m ρ c main_v3 = (Cert.ReferenceIdeal.Read.val_main_v3 (F := Ideal) (m ((c : Thread nD τ).loc main_arg3))) := W3_v3 m ρ c
theorem W3_v24 : W3 m ρ c (Proc.devRef .tc main_v24) = (m ((c : Thread nD τ).loc main_arg8)) := by
  show StableHlo.after hostOps1 (W2 m ρ c) (Proc.devRef .tc main_v24) = _
  after_results_simp
  exact W2_v24 m ρ c
theorem V3_v24 : V3 m ρ c main_v24 = (m ((c : Thread nD τ).loc main_arg8)) := W3_v24 m ρ c
theorem W3_v25 : W3 m ρ c (Proc.devRef .tc main_v25) = (m ((c : Thread nD τ).loc main_arg10)) := by
  show StableHlo.after hostOps1 (W2 m ρ c) (Proc.devRef .tc main_v25) = _
  after_results_simp
  exact W2_v25 m ρ c
theorem V3_v25 : V3 m ρ c main_v25 = (m ((c : Thread nD τ).loc main_arg10)) := W3_v25 m ρ c
theorem W3_v28 : W3 m ρ c (Proc.devRef .tc main_v28) = (shapeCast S1x128 (m ((c : Thread nD τ).loc main_arg9)) shapeCasts_S128_S1x128) := by
  show StableHlo.after hostOps1 (W2 m ρ c) (Proc.devRef .tc main_v28) = _
  after_results_simp
  exact W2_v28 m ρ c
theorem V3_v28 : V3 m ρ c main_v28 = (shapeCast S1x128 (m ((c : Thread nD τ).loc main_arg9)) shapeCasts_S128_S1x128) := W3_v28 m ρ c
theorem W3_v29 : W3 m ρ c (Proc.devRef .tc main_v29) = (shapeCast S1x128 (m ((c : Thread nD τ).loc main_arg11)) shapeCasts_S128_S1x128) := by
  show StableHlo.after hostOps1 (W2 m ρ c) (Proc.devRef .tc main_v29) = _
  after_results_simp
  exact W2_v29 m ρ c
theorem V3_v29 : V3 m ρ c main_v29 = (shapeCast S1x128 (m ((c : Thread nD τ).loc main_arg11)) shapeCasts_S128_S1x128) := W3_v29 m ρ c
theorem W3_arg0 : W3 m ρ c (Proc.devRef .tc main_arg0) = (m ((c : Thread nD τ).loc main_arg0)) := by
  show StableHlo.after hostOps1 (W2 m ρ c) (Proc.devRef .tc main_arg0) = _
  after_results_simp
  exact W2_arg0 m ρ c
theorem V3_arg0 : V3 m ρ c main_arg0 = (m ((c : Thread nD τ).loc main_arg0)) := W3_arg0 m ρ c
theorem W3_arg2 : W3 m ρ c (Proc.devRef .tc main_arg2) = (m ((c : Thread nD τ).loc main_arg2)) := by
  show StableHlo.after hostOps1 (W2 m ρ c) (Proc.devRef .tc main_arg2) = _
  after_results_simp
  exact W2_arg2 m ρ c
theorem V3_arg2 : V3 m ρ c main_arg2 = (m ((c : Thread nD τ).loc main_arg2)) := W3_arg2 m ρ c
theorem W3_v32_1 : W3 m ρ c (Proc.devRef .tc main_v32_1) = (cwArr (msgArr (Cert.ReferenceIdeal.Read.val_main_v10 (F := Ideal) (m ((c : Thread nD τ).loc main_arg0)) (m ((c : Thread nD τ).loc main_arg3))) (Cert.ReferenceIdeal.Read.val_main_v17 (F := Ideal) (m ((c : Thread nD τ).loc main_arg0)) (m ((c : Thread nD τ).loc main_arg3))) (m ((c : Thread nD τ).loc main_arg1)) (m ((c : Thread nD τ).loc main_arg4)) (shapeCast S1x128 (m ((c : Thread nD τ).loc main_arg5)) shapeCasts_S128_S1x128) (m ((c : Thread nD τ).loc main_arg6)) (shapeCast S1x128 (m ((c : Thread nD τ).loc main_arg7)) shapeCasts_S128_S1x128)) (m ((c : Thread nD τ).loc main_arg12)) (shapeCast S1x64 (m ((c : Thread nD τ).loc main_arg13)) shapeCasts_S64_S1x64) (m ((c : Thread nD τ).loc main_arg14)) (shapeCast S1x1 (m ((c : Thread nD τ).loc main_arg15)) shapeCasts_S1_S1x1)) := by
  show StableHlo.after hostOps1 (W2 m ρ c) (Proc.devRef .tc main_v32_1) = _
  after_results_simp
  exact W2_v32_1 m ρ c
theorem V3_v32_1 : V3 m ρ c main_v32_1 = (cwArr (msgArr (Cert.ReferenceIdeal.Read.val_main_v10 (F := Ideal) (m ((c : Thread nD τ).loc main_arg0)) (m ((c : Thread nD τ).loc main_arg3))) (Cert.ReferenceIdeal.Read.val_main_v17 (F := Ideal) (m ((c : Thread nD τ).loc main_arg0)) (m ((c : Thread nD τ).loc main_arg3))) (m ((c : Thread nD τ).loc main_arg1)) (m ((c : Thread nD τ).loc main_arg4)) (shapeCast S1x128 (m ((c : Thread nD τ).loc main_arg5)) shapeCasts_S128_S1x128) (m ((c : Thread nD τ).loc main_arg6)) (shapeCast S1x128 (m ((c : Thread nD τ).loc main_arg7)) shapeCasts_S128_S1x128)) (m ((c : Thread nD τ).loc main_arg12)) (shapeCast S1x64 (m ((c : Thread nD τ).loc main_arg13)) shapeCasts_S64_S1x64) (m ((c : Thread nD τ).loc main_arg14)) (shapeCast S1x1 (m ((c : Thread nD τ).loc main_arg15)) shapeCasts_S1_S1x1)) := W3_v32_1 m ρ c

/-- The aggregated messages: the scatter-add of the message array at the destination rows, into zeros. -/
theorem W3_v35 : W3 m ρ c (Proc.devRef .tc main_v35) = (Host.scatterAdd (F := Ideal) scatter_S50000x128_S400000x1_S400000x128_1_0_0_1
      (broadcastInDim S50000x128 ![] bcast_S_S50000x128 (constant (F := Ideal) S_ .f32 0x00000000#32))
      (broadcastInDim S400000x1 ![0] bcast_S400000_S400000x1_0 (Cert.ReferenceIdeal.Read.val_main_v3 (F := Ideal) (m ((c : Thread nD τ).loc main_arg3)))) (msgArr (Cert.ReferenceIdeal.Read.val_main_v10 (F := Ideal) (m ((c : Thread nD τ).loc main_arg0)) (m ((c : Thread nD τ).loc main_arg3))) (Cert.ReferenceIdeal.Read.val_main_v17 (F := Ideal) (m ((c : Thread nD τ).loc main_arg0)) (m ((c : Thread nD τ).loc main_arg3))) (m ((c : Thread nD τ).loc main_arg1)) (m ((c : Thread nD τ).loc main_arg4)) (shapeCast S1x128 (m ((c : Thread nD τ).loc main_arg5)) shapeCasts_S128_S1x128) (m ((c : Thread nD τ).loc main_arg6)) (shapeCast S1x128 (m ((c : Thread nD τ).loc main_arg7)) shapeCasts_S128_S1x128))) := by
  show StableHlo.after hostOps1 (W2 m ρ c) (Proc.devRef .tc main_v35) = _
  after_results_simp
  rw [W2_v3, W2_v32_0]
theorem V3_v35 : V3 m ρ c main_v35 = (Host.scatterAdd (F := Ideal) scatter_S50000x128_S400000x1_S400000x128_1_0_0_1
      (broadcastInDim S50000x128 ![] bcast_S_S50000x128 (constant (F := Ideal) S_ .f32 0x00000000#32))
      (broadcastInDim S400000x1 ![0] bcast_S400000_S400000x1_0 (Cert.ReferenceIdeal.Read.val_main_v3 (F := Ideal) (m ((c : Thread nD τ).loc main_arg3)))) (msgArr (Cert.ReferenceIdeal.Read.val_main_v10 (F := Ideal) (m ((c : Thread nD τ).loc main_arg0)) (m ((c : Thread nD τ).loc main_arg3))) (Cert.ReferenceIdeal.Read.val_main_v17 (F := Ideal) (m ((c : Thread nD τ).loc main_arg0)) (m ((c : Thread nD τ).loc main_arg3))) (m ((c : Thread nD τ).loc main_arg1)) (m ((c : Thread nD τ).loc main_arg4)) (shapeCast S1x128 (m ((c : Thread nD τ).loc main_arg5)) shapeCasts_S128_S1x128) (m ((c : Thread nD τ).loc main_arg6)) (shapeCast S1x128 (m ((c : Thread nD τ).loc main_arg7)) shapeCasts_S128_S1x128))) := W3_v35 m ρ c

/-! ## After the node kernel's grid -/

theorem W4_v1 : W4 m ρ c (Proc.devRef .tc main_v1) = (Cert.ReferenceIdeal.Read.val_main_v1 (F := Ideal) (m ((c : Thread nD τ).loc main_arg3))) :=
  (W4_of_ne m ρ c main_v1 (by decide)).trans (W3_v1 m ρ c)
theorem W4_v3 : W4 m ρ c (Proc.devRef .tc main_v3) = (Cert.ReferenceIdeal.Read.val_main_v3 (F := Ideal) (m ((c : Thread nD τ).loc main_arg3))) :=
  (W4_of_ne m ρ c main_v3 (by decide)).trans (W3_v3 m ρ c)
theorem W4_arg2 : W4 m ρ c (Proc.devRef .tc main_arg2) = (m ((c : Thread nD τ).loc main_arg2)) :=
  (W4_of_ne m ρ c main_arg2 (by decide)).trans (W3_arg2 m ρ c)
theorem W4_v32_1 : W4 m ρ c (Proc.devRef .tc main_v32_1) = (cwArr (msgArr (Cert.ReferenceIdeal.Read.val_main_v10 (F := Ideal) (m ((c : Thread nD τ).loc main_arg0)) (m ((c : Thread nD τ).loc main_arg3))) (Cert.ReferenceIdeal.Read.val_main_v17 (F := Ideal) (m ((c : Thread nD τ).loc main_arg0)) (m ((c : Thread nD τ).loc main_arg3))) (m ((c : Thread nD τ).loc main_arg1)) (m ((c : Thread nD τ).loc main_arg4)) (shapeCast S1x128 (m ((c : Thread nD τ).loc main_arg5)) shapeCasts_S128_S1x128) (m ((c : Thread nD τ).loc main_arg6)) (shapeCast S1x128 (m ((c : Thread nD τ).loc main_arg7)) shapeCasts_S128_S1x128)) (m ((c : Thread nD τ).loc main_arg12)) (shapeCast S1x64 (m ((c : Thread nD τ).loc main_arg13)) shapeCasts_S64_S1x64) (m ((c : Thread nD τ).loc main_arg14)) (shapeCast S1x1 (m ((c : Thread nD τ).loc main_arg15)) shapeCasts_S1_S1x1)) :=
  (W4_of_ne m ρ c main_v32_1 (by decide)).trans (W3_v32_1 m ρ c)

/-- The first result after the node kernel's grid. -/
theorem W4_v36 : W4 m ρ c (Proc.devRef .tc main_v36) = (nodeArr (m ((c : Thread nD τ).loc main_arg0)) (Host.scatterAdd (F := Ideal) scatter_S50000x128_S400000x1_S400000x128_1_0_0_1
      (broadcastInDim S50000x128 ![] bcast_S_S50000x128 (constant (F := Ideal) S_ .f32 0x00000000#32))
      (broadcastInDim S400000x1 ![0] bcast_S400000_S400000x1_0 (Cert.ReferenceIdeal.Read.val_main_v3 (F := Ideal) (m ((c : Thread nD τ).loc main_arg3)))) (msgArr (Cert.ReferenceIdeal.Read.val_main_v10 (F := Ideal) (m ((c : Thread nD τ).loc main_arg0)) (m ((c : Thread nD τ).loc main_arg3))) (Cert.ReferenceIdeal.Read.val_main_v17 (F := Ideal) (m ((c : Thread nD τ).loc main_arg0)) (m ((c : Thread nD τ).loc main_arg3))) (m ((c : Thread nD τ).loc main_arg1)) (m ((c : Thread nD τ).loc main_arg4)) (shapeCast S1x128 (m ((c : Thread nD τ).loc main_arg5)) shapeCasts_S128_S1x128) (m ((c : Thread nD τ).loc main_arg6)) (shapeCast S1x128 (m ((c : Thread nD τ).loc main_arg7)) shapeCasts_S128_S1x128))) (m ((c : Thread nD τ).loc main_arg8)) (shapeCast S1x128 (m ((c : Thread nD τ).loc main_arg9)) shapeCasts_S128_S1x128) (m ((c : Thread nD τ).loc main_arg10)) (shapeCast S1x128 (m ((c : Thread nD τ).loc main_arg11)) shapeCasts_S128_S1x128)) := by
  refine (W4_arr m ρ c 6).trans ?_
  rw [final1_6 (V3 m ρ) c, V3_arg0, V3_v35, V3_v24, V3_v28, V3_v25, V3_v29]

/-! ## After the last three host stretches -/

/-- The coordinate update writes none of the first result's buffer. -/
theorem W7_v36 : W7 m ρ c (Proc.devRef .tc main_v36) = (nodeArr (m ((c : Thread nD τ).loc main_arg0)) (Host.scatterAdd (F := Ideal) scatter_S50000x128_S400000x1_S400000x128_1_0_0_1
      (broadcastInDim S50000x128 ![] bcast_S_S50000x128 (constant (F := Ideal) S_ .f32 0x00000000#32))
      (broadcastInDim S400000x1 ![0] bcast_S400000_S400000x1_0 (Cert.ReferenceIdeal.Read.val_main_v3 (F := Ideal) (m ((c : Thread nD τ).loc main_arg3)))) (msgArr (Cert.ReferenceIdeal.Read.val_main_v10 (F := Ideal) (m ((c : Thread nD τ).loc main_arg0)) (m ((c : Thread nD τ).loc main_arg3))) (Cert.ReferenceIdeal.Read.val_main_v17 (F := Ideal) (m ((c : Thread nD τ).loc main_arg0)) (m ((c : Thread nD τ).loc main_arg3))) (m ((c : Thread nD τ).loc main_arg1)) (m ((c : Thread nD τ).loc main_arg4)) (shapeCast S1x128 (m ((c : Thread nD τ).loc main_arg5)) shapeCasts_S128_S1x128) (m ((c : Thread nD τ).loc main_arg6)) (shapeCast S1x128 (m ((c : Thread nD τ).loc main_arg7)) shapeCasts_S128_S1x128))) (m ((c : Thread nD τ).loc main_arg8)) (shapeCast S1x128 (m ((c : Thread nD τ).loc main_arg9)) shapeCasts_S128_S1x128) (m ((c : Thread nD τ).loc main_arg10)) (shapeCast S1x128 (m ((c : Thread nD τ).loc main_arg11)) shapeCasts_S128_S1x128)) := by
  show StableHlo.after hostOps2_2 (StableHlo.after hostOps2_1 (StableHlo.after hostOps2 (W4 m ρ c))) (Proc.devRef .tc main_v36) = _
  after_results_simp
  exact W4_v36 m ρ c

end Cert.KernelIdeal.Values

end
-- ==== Proof.TailRows.lean ====
/-
  The coordinate update, with the two rows of edge endpoints as parameters.

  For every edge with endpoints `s` (source) and `d` (destination): the difference of the endpoints' coordinates (each
  endpoint index wrapped once if negative, then a row gather), divided by its Euclidean norm plus a small constant, scaled
  by the edge's weight `cw`; these are scatter-added into zeros at the destination endpoints and added to the
  coordinates `x2`. `RefRows.coordTail` is this function at the two rows cut out of the index array.
-/
import proofs.«168592_j7275674599805_2_alg».proof.Proof.RefRows

noncomputable section

namespace Cert.ReferenceIdeal.TailRows

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-- The coordinate update from the coordinates `x2`, the source row `s`, the destination row `d` and the edges' weights `cw`. -/
def coordTailRows (x2 : (⟨S50000x3, .f32⟩ : BufTy).Contents (Elt Ideal)) (s d : (⟨S400000, .i32⟩ : BufTy).Contents (Elt Ideal))
    (cw : (⟨S400000x1, .f32⟩ : BufTy).Contents (Elt Ideal)) : (⟨S50000x3, .f32⟩ : BufTy).Contents (Elt Ideal) :=
  addf (F := Ideal) x2
    (Host.scatterAdd (F := Ideal) scatter_S50000x3_S400000x1_S400000x3_1_0_0_1
      (broadcastInDim S50000x3 ![] bcast_S_S50000x3 (constant (F := Ideal) S_ .f32 0x00000000#32))
      (broadcastInDim S400000x1 ![0] bcast_S400000_S400000x1_0 d)
      (mulf (F := Ideal) (broadcastInDim S400000x3 ![0, 1] bcast_S400000x1_S400000x3_0_1 cw)
        (Host.divf (F := Ideal)
          (subf (F := Ideal)
            (Host.gather gather_S50000x3_S400000x1_S400000x3_1_0_n_n_0_1_13 x2
              (broadcastInDim S400000x1 ![0] bcast_S400000_S400000x1_0
                (select (cmpi .slt s (broadcastInDim S400000 ![] bcast_S_S400000 (constantI S_ 32 0#32)))
                  (addi s (broadcastInDim S400000 ![] bcast_S_S400000 (constantI S_ 32 50000#32)))
                  s)))
            (Host.gather gather_S50000x3_S400000x1_S400000x3_1_0_n_n_0_1_13 x2
              (broadcastInDim S400000x1 ![0] bcast_S400000_S400000x1_0
                (select (cmpi .slt d (broadcastInDim S400000 ![] bcast_S_S400000 (constantI S_ 32 0#32)))
                  (addi d (broadcastInDim S400000 ![] bcast_S_S400000 (constantI S_ 32 50000#32)))
                  d))))
          (broadcastInDim S400000x3 ![0, 1] bcast_S400000x1_S400000x3_0_1
            (addf (F := Ideal)
              (Host.sqrt (F := Ideal)
                (broadcastInDim S400000x1 ![0] bcast_S400000_S400000x1_0
                  (Host.reduceAdd (F := Ideal)
                    (mulf (F := Ideal)
                      (subf (F := Ideal)
                        (Host.gather gather_S50000x3_S400000x1_S400000x3_1_0_n_n_0_1_13 x2
                          (broadcastInDim S400000x1 ![0] bcast_S400000_S400000x1_0
                            (select (cmpi .slt s (broadcastInDim S400000 ![] bcast_S_S400000 (constantI S_ 32 0#32)))
                              (addi s (broadcastInDim S400000 ![] bcast_S_S400000 (constantI S_ 32 50000#32)))
                              s)))
                        (Host.gather gather_S50000x3_S400000x1_S400000x3_1_0_n_n_0_1_13 x2
                          (broadcastInDim S400000x1 ![0] bcast_S400000_S400000x1_0
                            (select (cmpi .slt d (broadcastInDim S400000 ![] bcast_S_S400000 (constantI S_ 32 0#32)))
                              (addi d (broadcastInDim S400000 ![] bcast_S_S400000 (constantI S_ 32 50000#32)))
                              d))))
                      (subf (F := Ideal)
                        (Host.gather gather_S50000x3_S400000x1_S400000x3_1_0_n_n_0_1_13 x2
                          (broadcastInDim S400000x1 ![0] bcast_S400000_S400000x1_0
                            (select (cmpi .slt s (broadcastInDim S400000 ![] bcast_S_S400000 (constantI S_ 32 0#32)))
                              (addi s (broadcastInDim S400000 ![] bcast_S_S400000 (constantI S_ 32 50000#32)))
                              s)))
                        (Host.gather gather_S50000x3_S400000x1_S400000x3_1_0_n_n_0_1_13 x2
                          (broadcastInDim S400000x1 ![0] bcast_S400000_S400000x1_0
                            (select (cmpi .slt d (broadcastInDim S400000 ![] bcast_S_S400000 (constantI S_ 32 0#32)))
                              (addi d (broadcastInDim S400000 ![] bcast_S_S400000 (constantI S_ 32 50000#32)))
                              d)))))
                    (constant (F := Ideal) S_ .f32 0x00000000#32) reducesTo_S400000x3_S400000_d1 h_S_)))
              (broadcastInDim S400000x1 ![] bcast_S_S400000x1 (constant (F := Ideal) S_ .f32 0x322BCC77#32)))))))

/-- The coordinate update of the index array is the one of its two rows. -/
theorem coordTail_eq (x2 : (⟨S50000x3, .f32⟩ : BufTy).Contents (Elt Ideal)) (x3 : (⟨S2x400000, .i32⟩ : BufTy).Contents (Elt Ideal))
    (cw : (⟨S400000x1, .f32⟩ : BufTy).Contents (Elt Ideal)) :
    Cert.ReferenceIdeal.RefRows.coordTail x2 x3 cw
      = coordTailRows x2 (val_main_v1 (F := Ideal) x3) (val_main_v3 (F := Ideal) x3) cw := rfl

end Cert.ReferenceIdeal.TailRows

end
-- ==== Proof.Tail.lean ====
/-
  The second result of the idealized kernel program.

  The last three host stretches compute the coordinate update from four buffers as the node kernel left them: the
  coordinates, the two rows of edge endpoints and the edge kernel's coordinate weights. Read through the fold of the
  three stretches this is `TailRows.coordTailRows` of those four buffers (the outlined norm passes its operands through
  typed references whose transports are identities); the four buffers are then the launch memory's coordinates, the
  two rows of its index array, and `cwArr` of the message array.
-/
import proofs.«168592_j7275674599805_2_alg».proof.Proof.Values
import proofs.«168592_j7275674599805_2_alg».proof.Proof.TailRows
import Idealize.ShloMosaic.Lib.StableHlo.Run

set_option maxRecDepth 16384

noncomputable section

namespace Cert.KernelIdeal.Values

open Idealize.ShloMosaic Idealize.ShloMosaic.TcCoe Idealize.SL.Sem Idealize.ShloMosaic.StableHlo
open Cert.KernelIdeal Cert.KernelIdeal.Gen Cert.KernelIdeal.Arrays

variable (m : (ℓ : Loc nD τ sig) → Buf (Elt Ideal) ℓ) (ρ : Dev nD → PrngReg) (c : Dev nD)

/-- The second result at the last boundary: the coordinate update of what the four buffers held after the node kernel. -/
theorem W7_v62_rows : W7 m ρ c (Proc.devRef .tc main_v62)
    = Cert.ReferenceIdeal.TailRows.coordTailRows (W4 m ρ c (Proc.devRef .tc main_arg2)) (W4 m ρ c (Proc.devRef .tc main_v1)) (W4 m ρ c (Proc.devRef .tc main_v3)) (W4 m ρ c (Proc.devRef .tc main_v32_1)) := by
  show StableHlo.after hostOps2_2 (StableHlo.after hostOps2_1 (StableHlo.after hostOps2 (W4 m ρ c))) (Proc.devRef .tc main_v62) = _
  after_results_simp
  generalize W4 m ρ c (Proc.devRef .tc main_arg2) = a2
  generalize W4 m ρ c (Proc.devRef .tc main_v1) = s
  generalize W4 m ρ c (Proc.devRef .tc main_v3) = d
  generalize W4 m ρ c (Proc.devRef .tc main_v32_1) = cw
  simp only [TRef.toBuf, TRef.ofBuf, cast_eq]
  rfl

/-- The second result: the coordinate update of the coordinates, the index array and the coordinate weights. -/
theorem W7_v62 : W7 m ρ c (Proc.devRef .tc main_v62)
    = Cert.ReferenceIdeal.RefRows.coordTail (m ((c : Thread nD τ).loc main_arg2)) (m ((c : Thread nD τ).loc main_arg3)) (cwArr (msgArr (Cert.ReferenceIdeal.Read.val_main_v10 (F := Ideal) (m ((c : Thread nD τ).loc main_arg0)) (m ((c : Thread nD τ).loc main_arg3))) (Cert.ReferenceIdeal.Read.val_main_v17 (F := Ideal) (m ((c : Thread nD τ).loc main_arg0)) (m ((c : Thread nD τ).loc main_arg3))) (m ((c : Thread nD τ).loc main_arg1)) (m ((c : Thread nD τ).loc main_arg4)) (shapeCast S1x128 (m ((c : Thread nD τ).loc main_arg5)) shapeCasts_S128_S1x128) (m ((c : Thread nD τ).loc main_arg6)) (shapeCast S1x128 (m ((c : Thread nD τ).loc main_arg7)) shapeCasts_S128_S1x128)) (m ((c : Thread nD τ).loc main_arg12)) (shapeCast S1x64 (m ((c : Thread nD τ).loc main_arg13)) shapeCasts_S64_S1x64) (m ((c : Thread nD τ).loc main_arg14)) (shapeCast S1x1 (m ((c : Thread nD τ).loc main_arg15)) shapeCasts_S1_S1x1)) := by
  rw [W7_v62_rows, W4_v1, W4_v3, W4_arg2, W4_v32_1]
  exact (Cert.ReferenceIdeal.TailRows.coordTail_eq _ _ _).symm

end Cert.KernelIdeal.Values

end
-- ==== Proof.Bridge.lean ====
/-
  The row-wise arrays of the blocked evaluation, instantiated at the reference's own intermediate arrays, are the
  reference's arrays.

  The blocked evaluation of the layer ends with the message array, the coordinate-weight array and the updated-feature
  array each given as ONE function of whole input arrays (`Arrays.msgArr`, `Arrays.cwArr`, `Arrays.nodeArr`), every entry
  being a `Cert.RowSpec` expression of one row of the inputs. The reference's arrays are the same `RowSpec` expressions of
  the same rows (`RefRows.ref_msg`, `ref_cw`, `ref_node`). The two differ in one detail only: the blocked evaluation holds
  each bias as a one-row matrix `[1, n]`, obtained from the bias vector `[n]` by a change of shape, and reads it at
  `(0, k)`; the reference reads the vector at `k`. A change of shape keeps the row-major position, and position `(0, k)` of
  a `[1, n]` matrix is position `k` of the vector, so the two reads agree (`row_of_vec`).
-/
import proofs.«168592_j7275674599805_2_alg».proof.Proof.RefRows
import proofs.«168592_j7275674599805_2_alg».proof.Proof.EdgeArrays
import proofs.«168592_j7275674599805_2_alg».proof.Proof.NodeArrays

noncomputable section

namespace Cert.Bridge

open Cert.ReferenceIdeal.Read Cert.ReferenceIdeal.RefRows Idealize.ShloMosaic Idealize.ShloMosaic.ValueIdx

/-- A vector of `n` entries viewed as a one-row matrix reads, at `(0, k)`, the vector's entry `k`: both sit at row-major
    position `k`. -/
theorem row_of_vec {α : Type} {n : Nat} (x : (⟨1, ![n]⟩ : Shape).Idx → α)
    (h : (⟨1, ![n]⟩ : Shape).ShapeCasts ⟨2, ![1, n]⟩) (k : Fin n) :
    shapeCast (⟨2, ![1, n]⟩ : Shape) x h (ix2 (0 : Fin 1) k) = x (ix1 k) := by
  refine shapeCast_apply x h _ _ ?_
  rw [Shape.rowMajor_val_one, Shape.rowMajor_val_two]
  show k.val = 0 * n + k.val
  omega

/-- **The message array.** The blocked evaluation's message function, at the two gathered feature arrays and the
    reference's weights, is the reference's message array. -/
theorem msg_bridge
    (x0 : (⟨Cert.ReferenceIdeal.S50000x128, .f32⟩ : BufTy).Contents (Elt Ideal))
    (x1 : (⟨Cert.ReferenceIdeal.S400000x64, .f32⟩ : BufTy).Contents (Elt Ideal))
    (x3 : (⟨Cert.ReferenceIdeal.S2x400000, .i32⟩ : BufTy).Contents (Elt Ideal))
    (x4 : (⟨Cert.ReferenceIdeal.S320x128, .f32⟩ : BufTy).Contents (Elt Ideal))
    (x5 : (⟨Cert.ReferenceIdeal.S128, .f32⟩ : BufTy).Contents (Elt Ideal))
    (x6 : (⟨Cert.ReferenceIdeal.S128x128, .f32⟩ : BufTy).Contents (Elt Ideal))
    (x7 : (⟨Cert.ReferenceIdeal.S128, .f32⟩ : BufTy).Contents (Elt Ideal)) :
    Cert.KernelIdeal.Arrays.msgArr (val_main_v10 (F := Ideal) x0 x3) (val_main_v17 (F := Ideal) x0 x3) x1 x4
        (shapeCast Cert.KernelIdeal.S1x128 x5 Cert.KernelIdeal.Gen.shapeCasts_S128_S1x128) x6
        (shapeCast Cert.KernelIdeal.S1x128 x7 Cert.KernelIdeal.Gen.shapeCasts_S128_S1x128)
      = val_main_v28 (F := Ideal) x0 x1 x3 x4 x5 x6 x7 := by
  rw [ref_msg]
  unfold Cert.KernelIdeal.Arrays.msgArr
  simp only [row_of_vec]

/-- **The coordinate weights.** The blocked evaluation's coordinate-weight function, at the reference's message array,
    is the reference's coordinate-weight array. -/
theorem cw_bridge
    (x0 : (⟨Cert.ReferenceIdeal.S50000x128, .f32⟩ : BufTy).Contents (Elt Ideal))
    (x1 : (⟨Cert.ReferenceIdeal.S400000x64, .f32⟩ : BufTy).Contents (Elt Ideal))
    (x3 : (⟨Cert.ReferenceIdeal.S2x400000, .i32⟩ : BufTy).Contents (Elt Ideal))
    (x4 : (⟨Cert.ReferenceIdeal.S320x128, .f32⟩ : BufTy).Contents (Elt Ideal))
    (x5 : (⟨Cert.ReferenceIdeal.S128, .f32⟩ : BufTy).Contents (Elt Ideal))
    (x6 : (⟨Cert.ReferenceIdeal.S128x128, .f32⟩ : BufTy).Contents (Elt Ideal))
    (x7 : (⟨Cert.ReferenceIdeal.S128, .f32⟩ : BufTy).Contents (Elt Ideal))
    (x12 : (⟨Cert.ReferenceIdeal.S128x64, .f32⟩ : BufTy).Contents (Elt Ideal))
    (x13 : (⟨Cert.ReferenceIdeal.S64, .f32⟩ : BufTy).Contents (Elt Ideal))
    (x14 : (⟨Cert.ReferenceIdeal.S64x1, .f32⟩ : BufTy).Contents (Elt Ideal))
    (x15 : (⟨Cert.ReferenceIdeal.S1, .f32⟩ : BufTy).Contents (Elt Ideal)) :
    Cert.KernelIdeal.Arrays.cwArr (val_main_v28 (F := Ideal) x0 x1 x3 x4 x5 x6 x7) x12
        (shapeCast Cert.KernelIdeal.S1x64 x13 Cert.KernelIdeal.Gen.shapeCasts_S64_S1x64) x14
        (shapeCast Cert.KernelIdeal.S1x1 x15 Cert.KernelIdeal.Gen.shapeCasts_S1_S1x1)
      = val_main_v51 (F := Ideal) x0 x1 x3 x4 x5 x6 x7 x12 x13 x14 x15 := by
  rw [ref_cw]
  unfold Cert.KernelIdeal.Arrays.cwArr
  simp only [row_of_vec]

/-- **The updated features.** The blocked evaluation's node function, at the node features and the reference's
    aggregated messages, is the reference's updated-feature array. -/
theorem node_bridge
    (x0 : (⟨Cert.ReferenceIdeal.S50000x128, .f32⟩ : BufTy).Contents (Elt Ideal))
    (x1 : (⟨Cert.ReferenceIdeal.S400000x64, .f32⟩ : BufTy).Contents (Elt Ideal))
    (x3 : (⟨Cert.ReferenceIdeal.S2x400000, .i32⟩ : BufTy).Contents (Elt Ideal))
    (x4 : (⟨Cert.ReferenceIdeal.S320x128, .f32⟩ : BufTy).Contents (Elt Ideal))
    (x5 : (⟨Cert.ReferenceIdeal.S128, .f32⟩ : BufTy).Contents (Elt Ideal))
    (x6 : (⟨Cert.ReferenceIdeal.S128x128, .f32⟩ : BufTy).Contents (Elt Ideal))
    (x7 : (⟨Cert.ReferenceIdeal.S128, .f32⟩ : BufTy).Contents (Elt Ideal))
    (x8 : (⟨Cert.ReferenceIdeal.S256x128, .f32⟩ : BufTy).Contents (Elt Ideal))
    (x9 : (⟨Cert.ReferenceIdeal.S128, .f32⟩ : BufTy).Contents (Elt Ideal))
    (x10 : (⟨Cert.ReferenceIdeal.S128x128, .f32⟩ : BufTy).Contents (Elt Ideal))
    (x11 : (⟨Cert.ReferenceIdeal.S128, .f32⟩ : BufTy).Contents (Elt Ideal)) :
    Cert.KernelIdeal.Arrays.nodeArr x0 (val_main_v31 (F := Ideal) x0 x1 x3 x4 x5 x6 x7) x8
        (shapeCast Cert.KernelIdeal.S1x128 x9 Cert.KernelIdeal.Gen.shapeCasts_S128_S1x128) x10
        (shapeCast Cert.KernelIdeal.S1x128 x11 Cert.KernelIdeal.Gen.shapeCasts_S128_S1x128)
      = val_main_v42 (F := Ideal) x0 x1 x3 x4 x5 x6 x7 x8 x9 x10 x11 := by
  rw [ref_node]
  unfold Cert.KernelIdeal.Arrays.nodeArr
  simp only [row_of_vec]

end Cert.Bridge

end
-- ==== Proof.Results.lean ====
/-
  The idealized kernel's two results are the reference's two results, as functions of the launch memory.

  The first result is `nodeArr` of the node features and of the scatter-add of `msgArr`; `msgArr` of the gathered
  features is the reference's message array (`Bridge.msg_bridge`), so the scatter-add is the reference's aggregate (the
  same operation on the same operands) and `nodeArr` of it is the reference's updated features (`Bridge.node_bridge`).
  The second result is the coordinate update of `cwArr` of the messages, which is the reference's array of coordinate
  weights (`Bridge.cw_bridge`), and the coordinate update is one and the same function in both programs
  (`RefRows.ref_tail`).
-/
import proofs.«168592_j7275674599805_2_alg».proof.Proof.Values
import proofs.«168592_j7275674599805_2_alg».proof.Proof.Tail
import proofs.«168592_j7275674599805_2_alg».proof.Proof.Bridge

set_option maxRecDepth 16384

noncomputable section

namespace Cert.KernelIdeal.Results

open Idealize.ShloMosaic Idealize.ShloMosaic.TcCoe Idealize.SL.Sem
open Cert.KernelIdeal Cert.KernelIdeal.Gen Cert.KernelIdeal.Arrays

variable (m : (ℓ : Loc nD τ sig) → Buf (Elt Ideal) ℓ) (ρ : Dev nD → PrngReg) (c : Dev nD)

/-- The first result is the reference's updated node features at the launch memory. -/
theorem result0 : W7 m ρ c (Proc.devRef .tc main_v36)
    = Cert.ReferenceIdeal.Read.val_main_v42 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [Cert.KernelIdeal.Values.W7_v36, Cert.Bridge.msg_bridge]
  exact Cert.Bridge.node_bridge (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The second result is the reference's updated coordinates at the launch memory. -/
theorem result1 : W7 m ρ c (Proc.devRef .tc main_v62)
    = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15)) := by
  rw [Cert.KernelIdeal.Values.W7_v62, Cert.Bridge.msg_bridge, Cert.Bridge.cw_bridge]
  exact (Cert.ReferenceIdeal.RefRows.ref_tail (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15))).symm

end Cert.KernelIdeal.Results

end
-- ==== Proof.lean ====
/-
  One message-passing layer of a graph network — gather the endpoints' features, an edge network, scatter-add onto the
  destination nodes, a node network with a residual connection, and an equivariant coordinate update — computed by two
  kernels over blocks of edges and of nodes, against the plain whole-array evaluation: equal results over the extended
  reals.

  The two evaluations differ in three ways only. The kernels round operands to a narrower format before each matrix
  product, which is the identity over the extended reals. They never lay the gathered rows end to end: the first matrix
  of the edge network (320 rows) and of the node network (256 rows) is applied band by band and the partial products
  are added, which is the same finite sum regrouped (addition of extended reals is associative and commutative, so no
  finiteness of the inputs is needed). And they work block by block, which changes nothing because every output row
  depends on its own input row alone (`Proof/RowSpec.lean`). The gathers, the scatter-adds and the whole coordinate
  update are the same host operations in both programs.

  Kernel side: `Proof/Blocks.lean` (the bodies at an entry), `Proof/EdgeArrays.lean` and `Proof/NodeArrays.lean` (each grid
  as whole arrays), `Proof/RunResults.lean` and `Proof/Values.lean` (the run, and every buffer at every segment boundary).
  Reference side: `Proof/RefRows.lean`. The two meet in `Proof/Bridge.lean` and `Proof/Results.lean`.
  The three frames are the generated ones (the reference's is its generated run with the results dropped); the
  idealization rewrote nothing, so `preserves` is trivial.
-/
import proofs.«168592_j7275674599805_2_alg».proof.Defs
import proofs.«168592_j7275674599805_2_alg».proof.Proof.Gen.Kernel
import proofs.«168592_j7275674599805_2_alg».proof.Proof.Gen.Kernel.Skeleton
import proofs.«168592_j7275674599805_2_alg».proof.Proof.Gen.Kernel.Launch
import proofs.«168592_j7275674599805_2_alg».proof.Proof.Gen.Kernel.Points
import proofs.«168592_j7275674599805_2_alg».proof.Proof.Gen.Kernel.Frame
import proofs.«168592_j7275674599805_2_alg».proof.Proof.Gen.KernelIdeal
import proofs.«168592_j7275674599805_2_alg».proof.Proof.Gen.KernelIdeal.Skeleton
import proofs.«168592_j7275674599805_2_alg».proof.Proof.Gen.KernelIdeal.Launch
import proofs.«168592_j7275674599805_2_alg».proof.Proof.Gen.KernelIdeal.Points
import proofs.«168592_j7275674599805_2_alg».proof.Proof.Gen.KernelIdeal.Frame
import proofs.«168592_j7275674599805_2_alg».proof.Proof.Gen.ReferenceIdeal
import proofs.«168592_j7275674599805_2_alg».proof.Proof.Gen.ReferenceIdeal.Run
import proofs.«168592_j7275674599805_2_alg».proof.Proof.Gen.ReferenceIdeal.Read
import proofs.«168592_j7275674599805_2_alg».proof.Proof.Gen.Pre_finite_inputs
import proofs.«168592_j7275674599805_2_alg».proof.Proof.RunResults
import proofs.«168592_j7275674599805_2_alg».proof.Proof.Results
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the reference's two stage terms at the kernel's launch memory: the kernel by
    `Results.result0` / `result1` over its run, the reference by its generated run, its arguments being the kernel's. -/
theorem algebraic : Cert.algebraic_KernelIdeal_ReferenceIdeal := by
  intro m ρ m' ρ' _ hagree
  refine ⟨fun c => Cert.ReferenceIdeal.Read.val_main_v42 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)),
    fun c => Cert.ReferenceIdeal.Read.val_main_v77 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)), ?_, ?_⟩
  · refine (θ_run Cert.KernelIdeal.defs _ _).mono (fun r h c => ?_) (Cert.KernelIdeal.Whole.run_results (F := Ideal) m ρ)
    obtain ⟨h36, h62, hargs⟩ := h c
    exact ⟨h36.trans (Cert.KernelIdeal.Results.result0 m ρ c), h62.trans (Cert.KernelIdeal.Results.result1 m ρ c), hargs⟩
  · refine (θ_run Cert.ReferenceIdeal.defs _ _).mono (fun r h c => ?_) (Cert.ReferenceIdeal.Value.run (F := Ideal) m' ρ')
    obtain ⟨h42, h77, hargs⟩ := h c
    obtain ⟨a0, a1, a2, a3, a4, a5, a6, a7, a8, a9, a10, a11, a12, a13, a14, a15⟩ := hagree c
    refine ⟨h42.trans ?_, h77.trans ?_, hargs⟩
    · rw [Cert.ReferenceIdeal.Read.val_main_v42_eq, a0, a1, a3, a4, a5, a6, a7, a8, a9, a10, a11]
    · rw [Cert.ReferenceIdeal.Read.val_main_v77_eq, a0, a1, a2, a3, a4, a5, a6, a7, a12, a13, a14, a15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
